-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x1 : Shape := ⟨3, ![4096, 4096, 1]⟩
abbrev S_ : Shape := ⟨0, ![]⟩

class Facts : Prop where
  bcast_S_S4096x4096x1 : S_.BroadcastsInDim S4096x4096x1 (![] : Fin 0 → Fin S4096x4096x1.rank)
  reducesTo_S4096x4096x1_S_d0_1_2 : S4096x4096x1.ReducesTo [0, 1, 2] S_
  h_S_ : 0 < S_.numel

variable [Facts]

def fn {F : FTy → Type} [FloatOps F] (main_arg0 : FVec F S4096x4096x1 .f32) (main_arg1 : IVec S4096x4096x1 32) : IVec S_ 1 :=
  let main_v0 : FVec F S4096x4096x1 .f32 := Host.absf main_arg0
  let main_cst : FVec F S_ .f32 := constant S_ .f32 0x7F800000#32
  let main_v1 : FVec F S4096x4096x1 .f32 := broadcastInDim S4096x4096x1 ![] bcast_S_S4096x4096x1 main_cst
  let main_v2 : IVec S4096x4096x1 1 := cmpf .olt main_v0 main_v1
  let main_c : IVec S_ 1 := constantI S_ 1 1#1
  let main_v3 : IVec S_ 1 := (fun x v => Host.reduce IntOp.andi x v reducesTo_S4096x4096x1_S_d0_1_2 h_S_) main_v2 main_c
  main_v3
-- ==== Kernel.lean ====
abbrev S4096x4096x1 : Shape := ⟨3, ![4096, 4096, 1]⟩
abbrev S4096x4096 : Shape := ⟨2, ![4096, 4096]⟩
abbrev S1x4096 : Shape := ⟨2, ![1, 4096]⟩
abbrev S4096x128 : Shape := ⟨2, ![4096, 128]⟩
abbrev S1x128 : Shape := ⟨2, ![1, 128]⟩
abbrev S128 : Shape := ⟨1, ![128]⟩
abbrev S_ : Shape := ⟨0, ![]⟩

abbrev nBuf : Space → Nat
  | .hbm => 17
  | .vmem => 8
  | .smem => 0
  | _ => 0

abbrev bufTy : (tb : Table) → Fin (tcTables nBuf tb) → BufTy
  | .hbm, ⟨0, _⟩ => ⟨S4096x4096x1, .f32⟩
  | .hbm, ⟨1, _⟩ => ⟨S4096x4096x1, .i32⟩
  | .hbm, ⟨2, _⟩ => ⟨S4096x4096, .f32⟩
  | .hbm, ⟨3, _⟩ => ⟨S4096x4096, .i32⟩
  | .hbm, ⟨4, _⟩ => ⟨S1x4096, .f32⟩
  | .hbm, ⟨5, _⟩ => ⟨S1x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .i1⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S4096x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x4096x1_S4096x4096 : S4096x4096x1.ShapeCasts S4096x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S4096x128_d0_w32 : S4096x128.Iotas .tc 32 [0]
  rotates_S4096x128_d0 : S4096x128.Rotates 0 none
  natLt_1_32 : 1 < 32
  reduces_S4096x128_S128 : S4096x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  reducesTo_S1x4096_S_d0_1 : S1x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x4096.size a
  hwx0_0 : ∀ i : grid0.Coords, EltTy.bits .f32 = 32 ∨ (Rect.block (s := S4096x4096) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x4096.size a
  hwx0_1 : ∀ i : grid0.Coords, EltTy.bits .i32 = 32 ∨ (Rect.block (s := S4096x4096) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x4096.size a
  hwx0_2 : ∀ i : grid0.Coords, EltTy.bits .f32 = 32 ∨ (Rect.block (s := S1x4096) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x4096.size a
  hwx0_3 : ∀ i : grid0.Coords, EltTy.bits .f32 = 32 ∨ (Rect.block (s := S1x4096) S1x128.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096x1 : Shape := ⟨3, ![4096, 4096, 1]⟩
abbrev S4096x4096 : Shape := ⟨2, ![4096, 4096]⟩
abbrev S4095x4096 : Shape := ⟨2, ![4095, 4096]⟩
abbrev S_ : Shape := ⟨0, ![]⟩
abbrev S4096 : Shape := ⟨1, ![4096]⟩
abbrev S1x4096 : Shape := ⟨2, ![1, 4096]⟩
abbrev S16773120 : Shape := ⟨1, ![16773120]⟩
abbrev S16777216 : Shape := ⟨1, ![16777216]⟩
abbrev S16773120x1 : Shape := ⟨2, ![16773120, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x4096x1, .f32⟩
  | .hbm, ⟨1, _⟩ => ⟨S4096x4096x1, .i32⟩
  | .hbm, ⟨2, _⟩ => ⟨S4096x4096, .f32⟩
  | .hbm, ⟨3, _⟩ => ⟨S4096x4096, .i32⟩
  | .hbm, ⟨4, _⟩ => ⟨S4095x4096, .i32⟩
  | .hbm, ⟨5, _⟩ => ⟨S4095x4096, .i32⟩
  | .hbm, ⟨6, _⟩ => ⟨S4095x4096, .i1⟩
  | .hbm, ⟨7, _⟩ => ⟨S4095x4096, .f32⟩
  | .hbm, ⟨8, _⟩ => ⟨S4095x4096, .f32⟩
  | .hbm, ⟨9, _⟩ => ⟨S4095x4096, .f32⟩
  | .hbm, ⟨10, _⟩ => ⟨S4095x4096, .f32⟩
  | .hbm, ⟨11, _⟩ => ⟨S4095x4096, .i1⟩
  | .hbm, ⟨12, _⟩ => ⟨S4095x4096, .i32⟩
  | .hbm, ⟨13, _⟩ => ⟨S_, .i32⟩
  | .hbm, ⟨14, _⟩ => ⟨S_, .i32⟩
  | .hbm, ⟨15, _⟩ => ⟨S4095x4096, .i32⟩
  | .hbm, ⟨16, _⟩ => ⟨S4096, .i32⟩
  | .hbm, ⟨17, _⟩ => ⟨S1x4096, .i32⟩
  | .hbm, ⟨18, _⟩ => ⟨S_, .i32⟩
  | .hbm, ⟨19, _⟩ => ⟨S1x4096, .i32⟩
  | .hbm, ⟨20, _⟩ => ⟨S1x4096, .i32⟩
  | .hbm, ⟨21, _⟩ => ⟨S4095x4096, .i32⟩
  | .hbm, ⟨22, _⟩ => ⟨S4095x4096, .i32⟩
  | .hbm, ⟨23, _⟩ => ⟨S16773120, .i32⟩
  | .hbm, ⟨24, _⟩ => ⟨S4095x4096, .f32⟩
  | .hbm, ⟨25, _⟩ => ⟨S4095x4096, .f32⟩
  | .hbm, ⟨26, _⟩ => ⟨S16773120, .f32⟩
  | .hbm, ⟨27, _⟩ => ⟨S_, .f32⟩
  | .hbm, ⟨28, _⟩ => ⟨S16777216, .f32⟩
  | .hbm, ⟨29, _⟩ => ⟨S16773120x1, .i32⟩
  | .hbm, ⟨30, _⟩ => ⟨S16777216, .f32⟩
  | .hbm, ⟨31, _⟩ => ⟨S16773120, .f32⟩
  | .hbm, ⟨32, _⟩ => ⟨S_, .f32⟩
  | .hbm, ⟨33, _⟩ => ⟨S16777216, .f32⟩
  | .hbm, ⟨34, _⟩ => ⟨S16773120x1, .i32⟩
  | .hbm, ⟨35, _⟩ => ⟨S16777216, .f32⟩
  | .hbm, ⟨36, _⟩ => ⟨S_, .f32⟩
  | .hbm, ⟨37, _⟩ => ⟨S16777216, .f32⟩
  | .hbm, ⟨38, _⟩ => ⟨S16777216, .i1⟩
  | .hbm, ⟨39, _⟩ => ⟨S_, .f32⟩
  | .hbm, ⟨40, _⟩ => ⟨S_, .f32⟩
  | .hbm, ⟨41, _⟩ => ⟨S16777216, .f32⟩
  | .hbm, ⟨42, _⟩ => ⟨S16777216, .f32⟩
  | .hbm, ⟨43, _⟩ => ⟨S16777216, .f32⟩
  | .hbm, ⟨44, _⟩ => ⟨S_, .f32⟩
  | .hbm, ⟨45, _⟩ => ⟨S_, .f32⟩
  | .hbm, ⟨46, _⟩ => ⟨S16777216, .f32⟩
  | .hbm, ⟨47, _⟩ => ⟨S16777216, .f32⟩
  | .hbm, ⟨48, _⟩ => ⟨S16777216, .i32⟩
  | .hbm, ⟨49, _⟩ => ⟨S_, .i32⟩
  | .hbm, ⟨50, _⟩ => ⟨S_, .i32⟩
  | .hbm, ⟨51, _⟩ => ⟨S_, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S4096x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_call0_c : Ref sig .tc := ⟨.hbm, 13, rfl⟩
abbrev main_call0_call0_v0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_call2_v0 : Ref sig .tc := ⟨.hbm, 45, rfl⟩
abbrev main_call2_v1 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_call3_v0 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  shapeCasts_S4096x4096x1_S4096x4096 : S4096x4096x1.ShapeCasts S4096x4096
  slices_S4096x4096_S4095x4096_1_0 : S4096x4096.Slices ![1, 0] S4095x4096
  slices_S4096x4096_S4095x4096_0_0 : S4096x4096.Slices ![0, 0] S4095x4096
  natLt_1_32 : 1 < 32
  bcast_S_S_ : S_.BroadcastsInDim S_ (![] : Fin 0 → Fin S_.rank)
  reduceWindows_S4095x4096_S4095x4096_w4095s1p4094_0_w1s1p0_0 : S4095x4096.ReduceWindows (![4095, 1] : Fin 2 → Nat) ![1, 1] ![4094, 0] ![0, 0] S4095x4096
  h_S_ : 0 < S_.numel
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4095x4096_0_1 : S1x4096.BroadcastsInDim S4095x4096 (![0, 1] : Fin 2 → Fin S4095x4096.rank)
  shapeCasts_S4095x4096_S16773120 : S4095x4096.ShapeCasts S16773120
  bcast_S_S16777216 : S_.BroadcastsInDim S16777216 (![] : Fin 0 → Fin S16777216.rank)
  bcast_S16773120_S16773120x1_0 : S16773120.BroadcastsInDim S16773120x1 (![0] : Fin 1 → Fin S16773120x1.rank)
  reducesTo_S16777216_S_d0 : S16777216.ReducesTo [0] S_
  scatter_S16777216_S16773120x1_S16773120_n_0_0_1_wf : ScatterDims.WF S16777216 S16773120x1 S16773120 [] [0] [0] 1

variable [Facts₀]

def scatter_S16777216_S16773120x1_S16773120_n_0_0_1 : ScatterDims S16777216 S16773120x1 S16773120 where
  updateWindowDims := []
  insertedWindowDims := [0]
  scatterDimsToOperandDims := [0]
  indexVectorDim := 1
  wf := scatter_S16777216_S16773120x1_S16773120_n_0_0_1_wf

class Facts : Prop extends Facts₀ where

variable [Facts]
-- ==== Proof.Spec.lean ====
/-
  The mathematics both programs are proved against, free of any program text.

  One column: pairs `t = 0, 1, …, n-1` (pair `t` joins rows `t` and `t+1`), a flag `b t` saying the pair is KEPT
  (the two rows carry the same sign; `b t = false` is a BOUNDARY, and every index at or past `n` is a boundary),
  and a value `q t` (the squared increment of the pair, already multiplied by the pair's weight, so zero at a boundary).
  A RUN is a maximal stretch of consecutive kept pairs.  `seg b t` numbers the runs the way a cumulative sum of the
  boundary flags does; `segSum`, `segCnt`, `segMean` are a run's sum, size and mean by run NUMBER (the reference's
  reading); `runSum`, `runCnt` are the sum and size of the run ENDING at pair `t` (the scan's reading), and a pair is
  a run's last one when the next index is a boundary.  The quotient is the ideal instance's `Ideal.div`.
-/
import Idealize.ShloMosaic.PureOps.Ideal
import Idealize.ShloMosaic.Lib.ValueIdx

noncomputable section

namespace Cert.RunSpec

open Finset Idealize.ShloMosaic

/-! ## One column, by run number -/

/-- The number of boundaries among pairs `0 … t`, pair `t` included: the run number of pair `t`. -/
def seg (b : ℕ → Bool) (t : ℕ) : ℕ := ((range (t + 1)).filter fun u => b u = false).card

/-- The sum of `q` over the pairs below `n` whose run number is `k`. -/
def segSum (b : ℕ → Bool) (q : ℕ → EReal) (n k : ℕ) : EReal :=
  ∑ t ∈ (range n).filter (fun t => seg b t = k), q t

/-- The number of kept pairs below `n` whose run number is `k`. -/
def segCnt (b : ℕ → Bool) (n k : ℕ) : ℕ := ((range n).filter fun t => seg b t = k ∧ b t = true).card

/-- The mean of run number `k`, zero when it has no kept pair. -/
def segMean (b : ℕ → Bool) (q : ℕ → EReal) (n k : ℕ) : EReal :=
  if 0 < segCnt b n k then Ideal.div (segSum b q n k) ((segCnt b n k : ℕ) : EReal) else 0

/-- The column's sum of run means: run numbers range over `0 … n`. -/
def colSum (b : ℕ → Bool) (q : ℕ → EReal) (n : ℕ) : EReal := ∑ k ∈ range (n + 1), segMean b q n k

/-- The column's number of non-empty runs. -/
def colCnt (b : ℕ → Bool) (n : ℕ) : ℕ := ((range (n + 1)).filter fun k => 0 < segCnt b n k).card

/-! ## One column, by the run ending at a pair -/

/-- No boundary strictly after `u` up to `t`: pairs `u` and `t` lie in one run (or `u` is the boundary opening it). -/
def linked (b : ℕ → Bool) (u t : ℕ) : Prop := ∀ v, u < v → v ≤ t → b v = true

instance (b : ℕ → Bool) (u t : ℕ) : Decidable (linked b u t) := by
  unfold linked
  exact decidable_of_iff (∀ v ∈ range (t + 1), u < v → b v = true)
    ⟨fun h v h1 h2 => h v (mem_range.2 (Nat.lt_succ_of_le h2)) h1,
     fun h v hv h1 => h v h1 (Nat.le_of_lt_succ (mem_range.1 hv))⟩

/-- The sum of `q` over the run ending at pair `t`. -/
def runSum (b : ℕ → Bool) (q : ℕ → EReal) (t : ℕ) : EReal :=
  ∑ u ∈ (range (t + 1)).filter (fun u => linked b u t), q u

/-- The number of kept pairs in the run ending at pair `t`. -/
def runCnt (b : ℕ → Bool) (t : ℕ) : ℕ := ((range (t + 1)).filter fun u => linked b u t ∧ b u = true).card

/-- The sum, over the pairs that END a non-empty run, of that run's mean. -/
def endSum (b : ℕ → Bool) (q : ℕ → EReal) (n : ℕ) : EReal :=
  ∑ t ∈ (range n).filter (fun t => b (t + 1) = false ∧ 0 < runCnt b t),
    Ideal.div (runSum b q t) ((runCnt b t : ℕ) : EReal)

/-- The number of pairs that end a non-empty run. -/
def endCnt (b : ℕ → Bool) (n : ℕ) : ℕ := ((range n).filter fun t => b (t + 1) = false ∧ 0 < runCnt b t).card

/-! ## The doubling scan

The state carries, per index, a running sum, a running count and a flag "a boundary lies in the window summed so far".
One step with offset `d` adds in the state `d` places earlier unless the flag is already set, and ORs the flags. -/

/-- The scan's state. -/
structure ScanSt where
  /-- running sum -/
  x : ℕ → EReal
  /-- running count -/
  w : ℕ → EReal
  /-- a boundary lies in the window -/
  f : ℕ → Bool

/-- The value `d` places earlier, zero before the start. -/
def shiftE (d : ℕ) (v : ℕ → EReal) (t : ℕ) : EReal := if d ≤ t then v (t - d) else 0

/-- The flag `d` places earlier, unset before the start. -/
def shiftB (d : ℕ) (v : ℕ → Bool) (t : ℕ) : Bool := if d ≤ t then v (t - d) else false

/-- One doubling step with offset `d`. -/
def scanStep (d : ℕ) (s : ScanSt) : ScanSt where
  x t := if s.f t = true then s.x t else s.x t + shiftE d s.x t
  w t := if s.f t = true then s.w t else s.w t + shiftE d s.w t
  f t := s.f t || shiftB d s.f t

/-- The start: the pair's value, its weight, and its boundary flag. -/
def scanInit (b : ℕ → Bool) (q : ℕ → EReal) : ScanSt where
  x := q
  w t := if b t = true then 1 else 0
  f t := !b t

/-- Twelve steps with offsets 1, 2, 4, …, 2048: windows of 4096 indices. -/
def scanAll (s : ScanSt) : ScanSt :=
  scanStep 2048 (scanStep 1024 (scanStep 512 (scanStep 256 (scanStep 128 (scanStep 64
    (scanStep 32 (scanStep 16 (scanStep 8 (scanStep 4 (scanStep 2 (scanStep 1 s)))))))))))

/-- Pair `t` contributes: the next index is a boundary, `t` is not the last row, the running count is positive. -/
def scanKeep (b : ℕ → Bool) (q : ℕ → EReal) (t : ℕ) : Prop :=
  b (t + 1) = false ∧ t ≠ 4095 ∧ ((1 / 2 : ℝ) : EReal) < (scanAll (scanInit b q)).w t

instance (b : ℕ → Bool) (q : ℕ → EReal) (t : ℕ) : Decidable (scanKeep b q t) := by
  unfold scanKeep; exact inferInstance

/-- What row `t` adds to the column's sum: the running mean where the pair ends a non-empty run. -/
def scanTerm (b : ℕ → Bool) (q : ℕ → EReal) (t : ℕ) : EReal :=
  if scanKeep b q t then
    Ideal.div ((scanAll (scanInit b q)).x t) (max ((scanAll (scanInit b q)).w t) 1)
  else 0

/-- What row `t` adds to the column's count. -/
def scanOne (b : ℕ → Bool) (q : ℕ → EReal) (t : ℕ) : EReal := if scanKeep b q t then 1 else 0

/-! ## The arrays -/

/-- The [4096, 4096, 1] predictions as a function of row and column (zero outside). -/
def P (a0 : (⟨3, ![4096, 4096, 1]⟩ : Shape).Idx → EReal) (t r : ℕ) : EReal :=
  if h : t < 4096 ∧ r < 4096 then a0 (ValueIdx.ix3 (⟨t, h.1⟩ : Fin 4096) (⟨r, h.2⟩ : Fin 4096) (0 : Fin 1)) else 0

/-- The [4096, 4096, 1] signs as a function of row and column (zero outside). -/
def Sg (a1 : (⟨3, ![4096, 4096, 1]⟩ : Shape).Idx → BitVec 32) (t r : ℕ) : BitVec 32 :=
  if h : t < 4096 ∧ r < 4096 then a1 (ValueIdx.ix3 (⟨t, h.1⟩ : Fin 4096) (⟨r, h.2⟩ : Fin 4096) (0 : Fin 1)) else 0

/-- Column `r` of a sign table `sf row col`: pair `t` is kept when it is one of the 4095 pairs and its two rows carry
    the same sign. -/
def bcolF (sf : ℕ → ℕ → BitVec 32) (r t : ℕ) : Bool := decide (t < 4095 ∧ sf (t + 1) r = sf t r)

/-- Column `r` of a prediction table `pf row col`: the squared increment of pair `t` times the pair's weight. -/
def qcolF (pf : ℕ → ℕ → EReal) (sf : ℕ → ℕ → BitVec 32) (r t : ℕ) : EReal :=
  (pf (t + 1) r - pf t r) * (pf (t + 1) r - pf t r) * (if bcolF sf r t = true then 1 else 0)

/-- Column `r` of the sign array. -/
abbrev bcol (a1 : (⟨3, ![4096, 4096, 1]⟩ : Shape).Idx → BitVec 32) (r t : ℕ) : Bool := bcolF (Sg a1) r t

/-- Column `r` of the two arrays. -/
abbrev qcol (a0 : (⟨3, ![4096, 4096, 1]⟩ : Shape).Idx → EReal) (a1 : (⟨3, ![4096, 4096, 1]⟩ : Shape).Idx → BitVec 32)
    (r t : ℕ) : EReal := qcolF (P a0) (Sg a1) r t

/-- The sum of all run means, over the 4096 columns. -/
def totalSum (a0 : (⟨3, ![4096, 4096, 1]⟩ : Shape).Idx → EReal) (a1 : (⟨3, ![4096, 4096, 1]⟩ : Shape).Idx → BitVec 32) :
    EReal :=
  ∑ r ∈ range 4096, colSum (bcol a1 r) (qcol a0 a1 r) 4095

/-- The number of non-empty runs, over the 4096 columns. -/
def totalCnt (a1 : (⟨3, ![4096, 4096, 1]⟩ : Shape).Idx → BitVec 32) : ℕ :=
  ∑ r ∈ range 4096, colCnt (bcol a1 r) 4095

end Cert.RunSpec

end
-- ==== Proof.KernelRun.lean ====
/-
  The kernel program's run, read as values: what each window's block holds at a grid point, what each point writes
  back, and the two result rows [1, 4096] after the run as functions of the argument arrays.
  Grid point `j` (of 32) stages columns `128·j … 128·j + 127` of the [4096, 4096] predictions and signs, whole columns,
  and writes back the matching 128 entries of the two result rows.
-/
import proofs.«140218_j35270271434984_2_alg».proof.Proof.Gen.KernelIdeal.Frame
import proofs.«140218_j35270271434984_2_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.RunSpec Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: every window sits at block row 0 and block column `j` at point `j`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The predictions as the region finds them: the argument with its trailing unit axis dropped. -/
theorem V_v0 (c : Dev nD) : (V m c main_v0 : S4096x4096.Idx → EReal)
    = shapeCast S4096x4096 (m ((c : Thread nD τ).loc main_arg0)) Facts₀.shapeCasts_S4096x4096x1_S4096x4096 := by
  show StableHlo.after hostOps0 (fun b => m (c, b)) (Proc.devRef .tc main_v0) = _
  after_results
  rfl

/-- The signs as the region finds them: the argument with its trailing unit axis dropped. -/
theorem V_v1 (c : Dev nD) : (V m c main_v1 : S4096x4096.Idx → BitVec 32)
    = shapeCast S4096x4096 (m ((c : Thread nD τ).loc main_arg1)) Facts₀.shapeCasts_S4096x4096x1_S4096x4096 := by
  show StableHlo.after hostOps0 (fun b => m (c, b)) (Proc.devRef .tc main_v1) = _
  after_results
  rfl

/-- The region's predictions at row `t`, column `r` are the argument's, as the table `P`. -/
theorem V_v0_apply (c : Dev nD) (t r : Fin 4096) :
    (V m c main_v0 : S4096x4096.Idx → EReal) (ix2 t r) = P (m ((c : Thread nD τ).loc main_arg0)) t.val r.val := by
  rw [V_v0]
  have h : t.val < 4096 ∧ r.val < 4096 := ⟨t.isLt, r.isLt⟩
  unfold P
  rw [dif_pos h]
  refine shapeCast_apply _ _ _ (ix3 (⟨t.val, h.1⟩ : Fin 4096) (⟨r.val, h.2⟩ : Fin 4096) (0 : Fin 1)) ?_
  rw [Shape.rowMajor_val_three, Shape.rowMajor_val_two]
  show ((t.val * 4096 + r.val) * 1 + 0 : ℕ) = t.val * 4096 + r.val
  omega

/-- The region's signs at row `t`, column `r` are the argument's, as the table `Sg`. -/
theorem V_v1_apply (c : Dev nD) (t r : Fin 4096) :
    (V m c main_v1 : S4096x4096.Idx → BitVec 32) (ix2 t r) = Sg (m ((c : Thread nD τ).loc main_arg1)) t.val r.val := by
  rw [V_v1]
  have h : t.val < 4096 ∧ r.val < 4096 := ⟨t.isLt, r.isLt⟩
  unfold Sg
  rw [dif_pos h]
  refine shapeCast_apply _ _ _ (ix3 (⟨t.val, h.1⟩ : Fin 4096) (⟨r.val, h.2⟩ : Fin 4096) (0 : Fin 1)) ?_
  rw [Shape.rowMajor_val_three, Shape.rowMajor_val_two]
  show ((t.val * 4096 + r.val) * 1 + 0 : ℕ) = t.val * 4096 + r.val
  omega

/-- The predictions' block at point `j`: row `t`, column `x` of the block is row `t`, column `128·j + x` of the array. -/
theorem iblk0_apply (c : Dev nD) (j : Fin cfg0.N) (t : Fin 4096) (x : Fin 128) :
    (iblk m c 0 j : Vec Ideal S4096x128 .f32) (ix2 t x)
      = P (m ((c : Thread nD τ).loc main_arg0)) t.val (128 * j.val + x.val) := by
  have hj : j.val < 32 := by have h := j.isLt; have hN : cfg0.N = 32 := N_0; omega
  have hr : 128 * j.val + x.val < 4096 := by have := x.isLt; omega
  rw [← V_v0_apply m c t ⟨128 * j.val + x.val, hr⟩]
  unfold iblk
  rw [View.read_apply]
  show V m c main_v0 (((cfg0.win 0).blk j).view.emb (ix2 t x)) = V m c main_v0 _
  refine congrArg (V m c main_v0) (funext fun a => Fin.ext ?_)
  obtain ⟨e0, e1, -⟩ := idx_facts j
  match a with
  | ⟨0, _⟩ => show win0_0.index j (0 : Fin 2) * 4096 + 1 * t.val = t.val; rw [e0]; omega
  | ⟨1, _⟩ => show win0_0.index j (1 : Fin 2) * 128 + 1 * x.val = 128 * j.val + x.val; rw [e1]; omega

/-- The signs' block at point `j`, likewise. -/
theorem iblk1_apply (c : Dev nD) (j : Fin cfg0.N) (t : Fin 4096) (x : Fin 128) :
    (iblk m c 1 j : Vec Ideal S4096x128 .i32) (ix2 t x)
      = Sg (m ((c : Thread nD τ).loc main_arg1)) t.val (128 * j.val + x.val) := by
  have hj : j.val < 32 := by have h := j.isLt; have hN : cfg0.N = 32 := N_0; omega
  have hr : 128 * j.val + x.val < 4096 := by have := x.isLt; omega
  rw [← V_v1_apply m c t ⟨128 * j.val + x.val, hr⟩]
  unfold iblk
  rw [View.read_apply]
  show V m c main_v1 (((cfg0.win 1).blk j).view.emb (ix2 t x)) = V m c main_v1 _
  refine congrArg (V m c main_v1) (funext fun a => Fin.ext ?_)
  obtain ⟨-, -, e0, e1, -⟩ := idx_facts j
  match a with
  | ⟨0, _⟩ => show win0_1.index j (0 : Fin 2) * 4096 + 1 * t.val = t.val; rw [e0]; omega
  | ⟨1, _⟩ => show win0_1.index j (1 : Fin 2) * 128 + 1 * x.val = 128 * j.val + x.val; rw [e1]; omega

/-! ## What the body leaves in a result block, taken as a hypothesis here

The body's arithmetic is read column by column in its own module; this one needs only its statement. -/

/-- The first result block's entry for column `x` is the column's sum of run means, by the scan's reading. -/
def OutSum : Prop :=
  ∀ (x0 : Vec Ideal S4096x128 .f32) (x1 : Vec Ideal S4096x128 .i32) (pf : ℕ → ℕ → EReal) (sf : ℕ → ℕ → BitVec 32)
    (r : ℕ) (x : Fin 128), (∀ t : Fin 4096, x0 (ix2 t x) = pf t.val r) → (∀ t : Fin 4096, x1 (ix2 t x) = sf t.val r) →
    out0_2 (F := Ideal) x0 x1 (ix2 (0 : Fin 1) x) = ∑ t ∈ Finset.range 4096, scanTerm (bcolF sf r) (qcolF pf sf r) t

/-- The second result block's entry for column `x` is the column's number of non-empty runs, by the scan's reading. -/
def OutCnt : Prop :=
  ∀ (x0 : Vec Ideal S4096x128 .f32) (x1 : Vec Ideal S4096x128 .i32) (pf : ℕ → ℕ → EReal) (sf : ℕ → ℕ → BitVec 32)
    (r : ℕ) (x : Fin 128), (∀ t : Fin 4096, x0 (ix2 t x) = pf t.val r) → (∀ t : Fin 4096, x1 (ix2 t x) = sf t.val r) →
    out0_3 (F := Ideal) x0 x1 (ix2 (0 : Fin 1) x) = ∑ t ∈ Finset.range 4096, scanOne (bcolF sf r) (qcolF pf sf r) t

/-- The first result row as a function of the arguments: entry `r` is column `r`'s sum over its rows. -/
def G2 (a0 : S4096x4096x1.Idx → EReal) (a1 : S4096x4096x1.Idx → BitVec 32) : S1x4096.Idx → EReal :=
  fun i => ∑ t ∈ Finset.range 4096, scanTerm (bcol a1 (i 1).val) (qcol a0 a1 (i 1).val) t

/-- The second result row as a function of the arguments. -/
def G3 (a0 : S4096x4096x1.Idx → EReal) (a1 : S4096x4096x1.Idx → BitVec 32) : S1x4096.Idx → EReal :=
  fun i => ∑ t ∈ Finset.range 4096, scanOne (bcol a1 (i 1).val) (qcol a0 a1 (i 1).val) t

/-- Point `j` writes back block `j` of the first result row. -/
theorem flushed2_eq (hS : OutSum) (c : Dev nD) (j : Fin cfg0.N) :
    (dats m 0 c).flushed 2 j = ((cfg0.win 2).blk j).view.read (Elt Ideal)
      (G2 (m ((c : Thread nD τ).loc main_arg0)) (m ((c : Thread nD τ).loc main_arg1))) := by
  show (cfg0.win 2).cut (grid0.coords j) ((dats m 0 c).after 2 j) = _
  rw [after0_2]
  funext y
  obtain ⟨y0, y1, rfl⟩ : ∃ (y0 : Fin 1) (y1 : Fin 128), y = ix2 y0 y1 := ⟨y 0, y 1, eq_ix2 y⟩
  obtain rfl : y0 = 0 := Subsingleton.elim _ _
  rw [View.read_apply]
  show out0_2 (iblk m c 0 j) (iblk m c 1 j) (ix2 (0 : Fin 1) y1) = G2 _ _ (((cfg0.win 2).blk j).view.emb (ix2 (0 : Fin 1) y1))
  rw [hS (iblk m c 0 j) (iblk m c 1 j) (P (m ((c : Thread nD τ).loc main_arg0))) (Sg (m ((c : Thread nD τ).loc main_arg1)))
    (128 * j.val + y1.val) y1 (fun t => iblk0_apply m c j t y1) (fun t => iblk1_apply m c j t y1)]
  unfold G2
  have e : ((((cfg0.win 2).blk j).view.emb (ix2 (0 : Fin 1) y1)) 1).val = 128 * j.val + y1.val := by
    show win0_2.index j (1 : Fin 2) * 128 + 1 * y1.val = _
    rw [(idx_facts j).2.2.2.2.2.1]; omega
  rw [e]

/-- Point `j` writes back block `j` of the second result row. -/
theorem flushed3_eq (hC : OutCnt) (c : Dev nD) (j : Fin cfg0.N) :
    (dats m 0 c).flushed 3 j = ((cfg0.win 3).blk j).view.read (Elt Ideal)
      (G3 (m ((c : Thread nD τ).loc main_arg0)) (m ((c : Thread nD τ).loc main_arg1))) := by
  show (cfg0.win 3).cut (grid0.coords j) ((dats m 0 c).after 3 j) = _
  rw [after0_3]
  funext y
  obtain ⟨y0, y1, rfl⟩ : ∃ (y0 : Fin 1) (y1 : Fin 128), y = ix2 y0 y1 := ⟨y 0, y 1, eq_ix2 y⟩
  obtain rfl : y0 = 0 := Subsingleton.elim _ _
  rw [View.read_apply]
  show out0_3 (iblk m c 0 j) (iblk m c 1 j) (ix2 (0 : Fin 1) y1) = G3 _ _ (((cfg0.win 3).blk j).view.emb (ix2 (0 : Fin 1) y1))
  rw [hC (iblk m c 0 j) (iblk m c 1 j) (P (m ((c : Thread nD τ).loc main_arg0))) (Sg (m ((c : Thread nD τ).loc main_arg1)))
    (128 * j.val + y1.val) y1 (fun t => iblk0_apply m c j t y1) (fun t => iblk1_apply m c j t y1)]
  unfold G3
  have e : ((((cfg0.win 3).blk j).view.emb (ix2 (0 : Fin 1) y1)) 1).val = 128 * j.val + y1.val := by
    show win0_3.index j (1 : Fin 2) * 128 + 1 * y1.val = _
    rw [(idx_facts j).2.2.2.2.2.2.2]; omega
  rw [e]

/-- An entry of a result row lies in point `j`'s block iff its column is among the point's 128. -/
theorem mem_blk2 (j : Fin cfg0.N) (i : S1x4096.Idx) :
    i ∈ ((cfg0.win 2).blk j).view.set ↔ ∀ a : Fin 2, win0_2.index j a * S1x128.size a ≤ (i a).val
      ∧ (i a).val < win0_2.index j a * S1x128.size a + S1x128.size a := by
  show i ∈ ((View.whole main_v2_0).slice (win0_2.rect j)).set ↔ _
  rw [View.set_slice_whole, Rect.mem_set_unit]
  exact Iff.rfl

theorem mem_blk3 (j : Fin cfg0.N) (i : S1x4096.Idx) :
    i ∈ ((cfg0.win 3).blk j).view.set ↔ ∀ a : Fin 2, win0_3.index j a * S1x128.size a ≤ (i a).val
      ∧ (i a).val < win0_3.index j a * S1x128.size a + S1x128.size a := by
  show i ∈ ((View.whole main_v2_1).slice (win0_3.rect j)).set ↔ _
  rw [View.set_slice_whole, Rect.mem_set_unit]
  exact Iff.rfl

/-- Every entry of the first result row is written back by the point holding its column. -/
theorem cover2 (i : S1x4096.Idx) :
    ∃ j : Fin cfg0.N, (cfg0.win 2).flush j = true ∧ i ∈ ((cfg0.win 2).blk j).view.set := by
  have hi0 : (i 0).val < 1 := (i 0).isLt
  have hi1 : (i 1).val < 4096 := (i 1).isLt
  have hN : cfg0.N = 32 := N_0
  have hq : (i 1).val / 128 < cfg0.N := by omega
  refine ⟨⟨(i 1).val / 128, hq⟩, flush0_2 _, ?_⟩
  rw [mem_blk2]
  obtain ⟨-, -, -, -, e0, e1, -⟩ := idx_facts ⟨(i 1).val / 128, hq⟩
  have e1' : win0_2.index ⟨(i 1).val / 128, hq⟩ (1 : Fin 2) = (i 1).val / 128 := e1
  intro a
  match a with
  | ⟨0, _⟩ =>
    show win0_2.index ⟨(i 1).val / 128, hq⟩ (0 : Fin 2) * 1 ≤ (i 0).val
      ∧ (i 0).val < win0_2.index ⟨(i 1).val / 128, hq⟩ (0 : Fin 2) * 1 + 1
    rw [e0]; omega
  | ⟨1, _⟩ =>
    show win0_2.index ⟨(i 1).val / 128, hq⟩ (1 : Fin 2) * 128 ≤ (i 1).val
      ∧ (i 1).val < win0_2.index ⟨(i 1).val / 128, hq⟩ (1 : Fin 2) * 128 + 128
    rw [e1']; omega

theorem cover3 (i : S1x4096.Idx) :
    ∃ j : Fin cfg0.N, (cfg0.win 3).flush j = true ∧ i ∈ ((cfg0.win 3).blk j).view.set := by
  have hi0 : (i 0).val < 1 := (i 0).isLt
  have hi1 : (i 1).val < 4096 := (i 1).isLt
  have hN : cfg0.N = 32 := N_0
  have hq : (i 1).val / 128 < cfg0.N := by omega
  refine ⟨⟨(i 1).val / 128, hq⟩, flush0_3 _, ?_⟩
  rw [mem_blk3]
  obtain ⟨-, -, -, -, -, -, e0, e1⟩ := idx_facts ⟨(i 1).val / 128, hq⟩
  have e1' : win0_3.index ⟨(i 1).val / 128, hq⟩ (1 : Fin 2) = (i 1).val / 128 := e1
  intro a
  match a with
  | ⟨0, _⟩ =>
    show win0_3.index ⟨(i 1).val / 128, hq⟩ (0 : Fin 2) * 1 ≤ (i 0).val
      ∧ (i 0).val < win0_3.index ⟨(i 1).val / 128, hq⟩ (0 : Fin 2) * 1 + 1
    rw [e0]; omega
  | ⟨1, _⟩ =>
    show win0_3.index ⟨(i 1).val / 128, hq⟩ (1 : Fin 2) * 128 ≤ (i 1).val
      ∧ (i 1).val < win0_3.index ⟨(i 1).val / 128, hq⟩ (1 : Fin 2) * 128 + 128
    rw [e1']; omega

/-- The first result row after the run. -/
theorem final2 (hS : OutSum) (c : Dev nD) : (dats m 0 c).arrAt 2 cfg0.N
    = G2 (m ((c : Thread nD τ).loc main_arg0)) (m ((c : Thread nD τ).loc main_arg1)) :=
  (dats m 0 c).arrAt_eq_of_cover 2 _ (fun j _ => flushed2_eq m hS c j) cover2

/-- The second result row after the run. -/
theorem final3 (hC : OutCnt) (c : Dev nD) : (dats m 0 c).arrAt 3 cfg0.N
    = G3 (m ((c : Thread nD τ).loc main_arg0)) (m ((c : Thread nD τ).loc main_arg1)) :=
  (dats m 0 c).arrAt_eq_of_cover 3 _ (fun j _ => flushed3_eq m hC c j) cover3

/-! ## The host operations after the region -/

/-- The mean of the run means from their sum and their number: `tot / max n 1` when `n > 0`, else zero. -/
def finishK (tot n : S_.Idx → EReal) : S_.Idx → EReal :=
  select (cmpf .ogt n (constant (F := Ideal) S_ .f32 0x00000000#32))
    (Host.divf tot (maximumf n (constant (F := Ideal) S_ .f32 0x3F800000#32)))
    (constant (F := Ideal) S_ .f32 0x00000000#32)

/-- The program's result from the two result rows after the run. -/
theorem tail_eq (c : Dev nD) :
    Pipeline.afterTail₀ cfgs (dats m) 0 (V0 m) [hostOps1, hostOps1_1] c main_v8
      = finishK
          (Host.reduceAdd (F := Ideal) ((dats m 0 c).arrAt 2 cfg0.N) (constant (F := Ideal) S_ .f32 0x00000000#32)
            Facts₀.reducesTo_S1x4096_S_d0_1 Facts₀.h_S_)
          (Host.reduceAdd (F := Ideal) ((dats m 0 c).arrAt 3 cfg0.N) (constant (F := Ideal) S_ .f32 0x00000000#32)
            Facts₀.reducesTo_S1x4096_S_d0_1 Facts₀.h_S_) := by
  unfold Pipeline.afterTail₀
  simp only [hostOps1, hostOps1_1, List.flatten_cons, List.flatten_nil, List.append_nil, List.cons_append, List.nil_append]
  after_results
  rw [show Pipeline.withArrays (cfgs 0).spec c (V0 m c) (fun w => (dats m 0 c).arrAt w (cfgs 0).N) (Proc.devRef .tc main_v2_0)
        = (dats m 0 c).arrAt 2 cfg0.N from Pipeline.withArrays_arr spec0 launch0.win.arr_inj c _ _ 2,
    show Pipeline.withArrays (cfgs 0).spec c (V0 m c) (fun w => (dats m 0 c).arrAt w (cfgs 0).N) (Proc.devRef .tc main_v2_1)
        = (dats m 0 c).arrAt 3 cfg0.N from Pipeline.withArrays_arr spec0 launch0.win.arr_inj c _ _ 3]
  generalize Host.reduceAdd (F := Ideal) ((dats m 0 c).arrAt 2 cfg0.N) (constant (F := Ideal) S_ .f32 0x00000000#32)
    Facts₀.reducesTo_S1x4096_S_d0_1 Facts₀.h_S_ = A
  generalize Host.reduceAdd (F := Ideal) ((dats m 0 c).arrAt 3 cfg0.N) (constant (F := Ideal) S_ .f32 0x00000000#32)
    Facts₀.reducesTo_S1x4096_S_d0_1 Facts₀.h_S_ = B
  rfl

/-! ## The run, read -/

/-- Every weakly fair execution of the kernel program ends with its result at the mean of the run means computed from
    the two result rows, the arguments unchanged. -/
theorem run (hS : OutSum) (hC : OutCnt) :
    θ_run defs (onTc (τ := τ) (main (F := Ideal))) ⟨m, fun _ => 0, ρ⟩ fun r => ∀ c : Dev nD,
      r.2.mem ((c.tc : Thread nD τ).loc main_v8)
        = finishK
            (Host.reduceAdd (F := Ideal) (G2 (m ((c.tc : Thread nD τ).loc main_arg0)) (m ((c.tc : Thread nD τ).loc main_arg1)))
              (constant (F := Ideal) S_ .f32 0x00000000#32) Facts₀.reducesTo_S1x4096_S_d0_1 Facts₀.h_S_)
            (Host.reduceAdd (F := Ideal) (G3 (m ((c.tc : Thread nD τ).loc main_arg0)) (m ((c.tc : Thread nD τ).loc main_arg1)))
              (constant (F := Ideal) S_ .f32 0x00000000#32) Facts₀.reducesTo_S1x4096_S_d0_1 Facts₀.h_S_)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v8 (Pipeline.mem_restRefs_of main_v8 (by decide) (by decide))).trans
        ((tail_eq m c).trans (by rw [final2 m hS c, final3 m hC c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.ScanMath.lean ====
/-
  The doubling scan computes the run sums.

  Fix one column: a kept-flag `b` and values `q`.  For a window length `L` let `win b L t` be the set of
  indices `u ≤ t` that lie in the window `(t - L, t]` and are linked to `t` (no boundary strictly after `u` up to `t`).
  The scan's state after the steps with offsets `1, 2, …, L/2` holds, at every index `t`, the sum of `q` over
  `win b L t`, the number of kept indices in `win b L t`, and the flag "a boundary lies in the window `(t - L, t]`".

  One step with offset `L` doubles the window.  If the flag is set, an index at or below `t - L` cannot be linked to `t`,
  so the longer window adds nothing.  If it is not set, every index of `(t - L, t]` is kept, so an index `u ≤ t - L` is
  linked to `t` exactly when it is linked to `t - L`: the window `(t - 2L, t]` is the disjoint union of `(t - L, t]` and
  the window `(t - 2L, t - L]` of the index `L` places earlier.  Twelve steps reach `L = 4096`, where for `t < 4096` the
  window condition is vacuous: the state holds the sum and the size of the run ending at `t`.  Sums are taken in the
  extended reals, a commutative monoid under addition; nothing is ever subtracted.
-/
import proofs.«140218_j35270271434984_2_alg».proof.Proof.Spec

noncomputable section

namespace Cert.RunSpec

open Finset Idealize.ShloMosaic

/-! ## Windows -/

/-- The indices of the window `(t - L, t]` that are linked to `t`. -/
def win (b : ℕ → Bool) (L t : ℕ) : Finset ℕ :=
  (range (t + 1)).filter fun u => t < u + L ∧ linked b u t

theorem mem_win (b : ℕ → Bool) (L t u : ℕ) :
    u ∈ win b L t ↔ u ≤ t ∧ t < u + L ∧ linked b u t := by
  unfold win
  rw [mem_filter, mem_range, Nat.lt_succ_iff]

/-- The sum of `g` over the linked part of the window. -/
def winSum (b : ℕ → Bool) (g : ℕ → EReal) (L t : ℕ) : EReal := ∑ u ∈ win b L t, g u

/-- A boundary lies in the window `(t - L, t]`. -/
def flagSpec (b : ℕ → Bool) (L t : ℕ) : Prop := ∃ v, v ≤ t ∧ t < v + L ∧ b v = false

/-- With a boundary in `(t - L, t]`, nothing at or below `t - L` is linked to `t`. -/
theorem win_flagged (b : ℕ → Bool) (L t : ℕ) (h : flagSpec b L t) : win b (L + L) t = win b L t := by
  obtain ⟨v, hv1, hv2, hv3⟩ := h
  ext u
  rw [mem_win, mem_win]
  constructor
  · rintro ⟨h1, _, h3⟩
    refine ⟨h1, ?_, h3⟩
    by_contra hlt
    have huv : u < v := by omega
    have hbv := h3 v huv hv1
    rw [hv3] at hbv
    exact Bool.false_ne_true hbv
  · rintro ⟨h1, h2, h3⟩
    exact ⟨h1, by omega, h3⟩

/-- Before index `L` the window already reaches the start. -/
theorem win_short (b : ℕ → Bool) (L t : ℕ) (h : t < L) : win b (L + L) t = win b L t := by
  ext u
  rw [mem_win, mem_win]
  constructor
  · rintro ⟨h1, _, h3⟩
    exact ⟨h1, by omega, h3⟩
  · rintro ⟨h1, _, h3⟩
    exact ⟨h1, by omega, h3⟩

/-- With no boundary in `(t - L, t]`, the doubled window splits at `t - L`. -/
theorem win_split (b : ℕ → Bool) (L t : ℕ) (hL : L ≤ t) (h : ¬ flagSpec b L t) :
    win b (L + L) t = win b L t ∪ win b L (t - L) := by
  have hk : ∀ v, v ≤ t → t < v + L → b v = true := by
    intro v h1 h2
    by_contra hb
    exact h ⟨v, h1, h2, by simpa using hb⟩
  ext u
  rw [mem_union, mem_win, mem_win, mem_win]
  constructor
  · rintro ⟨h1, h2, h3⟩
    by_cases hc : t < u + L
    · exact Or.inl ⟨h1, hc, h3⟩
    · exact Or.inr ⟨by omega, by omega, fun v hv1 hv2 => h3 v hv1 (by omega)⟩
  · rintro (⟨h1, h2, h3⟩ | ⟨h1, h2, h3⟩)
    · exact ⟨h1, by omega, h3⟩
    · refine ⟨by omega, by omega, fun v hv1 hv2 => ?_⟩
      by_cases hc : v ≤ t - L
      · exact h3 v hv1 hc
      · exact hk v hv2 (by omega)

theorem win_disj (b : ℕ → Bool) (L t : ℕ) (hL : L ≤ t) : Disjoint (win b L t) (win b L (t - L)) := by
  rw [Finset.disjoint_left]
  intro u h1 h2
  rw [mem_win] at h1 h2
  omega

/-- One step, for the sum of any `g`: what the step computes from the sums over windows of length `L` is the sum
    over the window of length `2L`. -/
theorem winSum_step (b : ℕ → Bool) (g : ℕ → EReal) (L t : ℕ) (f : Bool) (hf : f = true ↔ flagSpec b L t) :
    (if f = true then winSum b g L t else winSum b g L t + shiftE L (winSum b g L) t)
      = winSum b g (L + L) t := by
  by_cases hft : f = true
  · rw [if_pos hft]
    unfold winSum
    rw [win_flagged b L t (hf.1 hft)]
  · rw [if_neg hft]
    have hn : ¬ flagSpec b L t := fun h => hft (hf.2 h)
    unfold shiftE
    by_cases hL : L ≤ t
    · rw [if_pos hL]
      unfold winSum
      rw [win_split b L t hL hn, sum_union (win_disj b L t hL)]
    · rw [if_neg hL, add_zero]
      unfold winSum
      rw [win_short b L t (by omega)]

/-! ## The invariant -/

/-- The weight of an index: one when kept. -/
def ind (b : ℕ → Bool) (u : ℕ) : EReal := if b u = true then 1 else 0

/-- The state after the steps with offsets `1, …, L/2`. -/
structure Inv (b : ℕ → Bool) (q : ℕ → EReal) (L : ℕ) (s : ScanSt) : Prop where
  x : ∀ t, s.x t = winSum b q L t
  w : ∀ t, s.w t = winSum b (ind b) L t
  f : ∀ t, s.f t = true ↔ flagSpec b L t

theorem win_one (b : ℕ → Bool) (t : ℕ) : win b 1 t = {t} := by
  ext u
  rw [mem_win, mem_singleton]
  constructor
  · rintro ⟨h1, h2, _⟩
    omega
  · rintro rfl
    exact ⟨le_refl _, by omega, fun v h1 h2 => by omega⟩

theorem Inv.init (b : ℕ → Bool) (q : ℕ → EReal) : Inv b q 1 (scanInit b q) where
  x t := by
    show q t = _
    unfold winSum
    rw [win_one, sum_singleton]
  w t := by
    show (if b t = true then (1 : EReal) else 0) = _
    unfold winSum
    rw [win_one, sum_singleton]
    rfl
  f t := by
    show (!b t) = true ↔ _
    constructor
    · intro h
      exact ⟨t, le_refl _, by omega, by simpa using h⟩
    · rintro ⟨v, h1, h2, h3⟩
      have hvt : v = t := by omega
      subst hvt
      simp [h3]

theorem Inv.step {b : ℕ → Bool} {q : ℕ → EReal} {L : ℕ} {s : ScanSt} (h : Inv b q L s) :
    Inv b q (L + L) (scanStep L s) where
  x t := by
    show (if s.f t = true then s.x t else s.x t + shiftE L s.x t) = _
    have hx : s.x = winSum b q L := funext h.x
    rw [hx]
    exact winSum_step b q L t (s.f t) (h.f t)
  w t := by
    show (if s.f t = true then s.w t else s.w t + shiftE L s.w t) = _
    have hw : s.w = winSum b (ind b) L := funext h.w
    rw [hw]
    exact winSum_step b (ind b) L t (s.f t) (h.f t)
  f t := by
    show (s.f t || shiftB L s.f t) = true ↔ _
    rw [Bool.or_eq_true, h.f t]
    unfold shiftB
    constructor
    · rintro (⟨v, h1, h2, h3⟩ | h')
      · exact ⟨v, h1, by omega, h3⟩
      · by_cases hL : L ≤ t
        · rw [if_pos hL, h.f (t - L)] at h'
          obtain ⟨v, h1, h2, h3⟩ := h'
          exact ⟨v, by omega, by omega, h3⟩
        · rw [if_neg hL] at h'
          exact absurd h' Bool.false_ne_true
    · rintro ⟨v, h1, h2, h3⟩
      by_cases hc : t < v + L
      · exact Or.inl ⟨v, h1, hc, h3⟩
      · right
        have hL : L ≤ t := by omega
        rw [if_pos hL, h.f (t - L)]
        exact ⟨v, by omega, by omega, h3⟩

theorem Inv.all (b : ℕ → Bool) (q : ℕ → EReal) : Inv b q 4096 (scanAll (scanInit b q)) := by
  have h1 : Inv b q 1 (scanInit b q) := Inv.init b q
  have h2 : Inv b q 2 _ := h1.step
  have h4 : Inv b q 4 _ := h2.step
  have h8 : Inv b q 8 _ := h4.step
  have h16 : Inv b q 16 _ := h8.step
  have h32 : Inv b q 32 _ := h16.step
  have h64 : Inv b q 64 _ := h32.step
  have h128 : Inv b q 128 _ := h64.step
  have h256 : Inv b q 256 _ := h128.step
  have h512 : Inv b q 512 _ := h256.step
  have h1024 : Inv b q 1024 _ := h512.step
  have h2048 : Inv b q 2048 _ := h1024.step
  have h4096 : Inv b q 4096 _ := h2048.step
  exact h4096

/-! ## The full window -/

theorem win_full (b : ℕ → Bool) (t : ℕ) (ht : t < 4096) :
    win b 4096 t = (range (t + 1)).filter (fun u => linked b u t) := by
  ext u
  rw [mem_win, mem_filter, mem_range]
  constructor
  · rintro ⟨h1, _, h3⟩
    exact ⟨by omega, h3⟩
  · rintro ⟨h1, h3⟩
    exact ⟨by omega, by omega, h3⟩

/-- A sum of weights is a count. -/
theorem sum_ite_one (s : Finset ℕ) (p : ℕ → Prop) [DecidablePred p] :
    ∑ u ∈ s, (if p u then (1 : EReal) else 0) = (((s.filter p).card : ℕ) : EReal) := by
  induction s using Finset.induction_on with
  | empty => simp
  | insert a s ha ih =>
    rw [sum_insert ha, ih, filter_insert]
    by_cases hp : p a
    · rw [if_pos hp, if_pos hp, card_insert_of_notMem (fun hm => ha (mem_filter.1 hm).1), Nat.cast_succ, add_comm]
    · rw [if_neg hp, if_neg hp, zero_add]

theorem scan_x (b : ℕ → Bool) (q : ℕ → EReal) (t : ℕ) (ht : t < 4096) :
    (scanAll (scanInit b q)).x t = runSum b q t := by
  rw [(Inv.all b q).x t]
  unfold winSum runSum
  rw [win_full b t ht]

theorem scan_w (b : ℕ → Bool) (q : ℕ → EReal) (t : ℕ) (ht : t < 4096) :
    (scanAll (scanInit b q)).w t = ((runCnt b t : ℕ) : EReal) := by
  rw [(Inv.all b q).w t]
  unfold winSum runCnt ind
  rw [win_full b t ht, sum_ite_one, filter_filter]

/-! ## The contributing pairs -/

theorem half_lt_natCast (n : ℕ) : ((1 / 2 : ℝ) : EReal) < ((n : ℕ) : EReal) ↔ 0 < n := by
  rw [← EReal.coe_natCast, EReal.coe_lt_coe_iff]
  constructor
  · intro h
    rcases Nat.eq_zero_or_pos n with h0 | h0
    · subst h0
      norm_num at h
    · exact h0
  · intro h
    have h1 : (1 : ℝ) ≤ (n : ℝ) := by exact_mod_cast h
    linarith

theorem max_natCast_one (n : ℕ) (h : 0 < n) : max ((n : ℕ) : EReal) 1 = ((n : ℕ) : EReal) := by
  apply max_eq_left
  rw [← EReal.coe_natCast, ← EReal.coe_one, EReal.coe_le_coe_iff]
  exact_mod_cast h

theorem scanKeep_iff (b : ℕ → Bool) (q : ℕ → EReal) (t : ℕ) (ht : t < 4096) :
    scanKeep b q t ↔ (b (t + 1) = false ∧ t ≠ 4095 ∧ 0 < runCnt b t) := by
  unfold scanKeep
  rw [scan_w b q t ht, half_lt_natCast]

theorem scanKeep_iff' (b : ℕ → Bool) (q : ℕ → EReal) (t : ℕ) (ht : t < 4095) :
    scanKeep b q t ↔ (b (t + 1) = false ∧ 0 < runCnt b t) := by
  rw [scanKeep_iff b q t (by omega)]
  constructor
  · rintro ⟨h1, _, h3⟩
    exact ⟨h1, h3⟩
  · rintro ⟨h1, h3⟩
    exact ⟨h1, by omega, h3⟩

theorem scanKeep_last (b : ℕ → Bool) (q : ℕ → EReal) : ¬ scanKeep b q 4095 := by
  rw [scanKeep_iff b q 4095 (by omega)]
  rintro ⟨_, h2, _⟩
  exact h2 rfl

theorem scanTerm_eq (b : ℕ → Bool) (q : ℕ → EReal) (t : ℕ) (ht : t < 4095) :
    scanTerm b q t =
      if b (t + 1) = false ∧ 0 < runCnt b t then Ideal.div (runSum b q t) ((runCnt b t : ℕ) : EReal) else 0 := by
  unfold scanTerm
  by_cases h : b (t + 1) = false ∧ 0 < runCnt b t
  · rw [if_pos ((scanKeep_iff' b q t ht).2 h), if_pos h, scan_x b q t (by omega), scan_w b q t (by omega),
      max_natCast_one _ h.2]
  · rw [if_neg (fun hk => h ((scanKeep_iff' b q t ht).1 hk)), if_neg h]

theorem scanOne_eq (b : ℕ → Bool) (q : ℕ → EReal) (t : ℕ) (ht : t < 4095) :
    scanOne b q t = if b (t + 1) = false ∧ 0 < runCnt b t then 1 else 0 := by
  unfold scanOne
  by_cases h : b (t + 1) = false ∧ 0 < runCnt b t
  · rw [if_pos ((scanKeep_iff' b q t ht).2 h), if_pos h]
  · rw [if_neg (fun hk => h ((scanKeep_iff' b q t ht).1 hk)), if_neg h]

/-! ## The column's sum and count -/

/-- The scan's per-row contributions add up to the sum of the run means. -/
theorem scan_sum (b : ℕ → Bool) (q : ℕ → EReal) (hb : ∀ t, 4095 ≤ t → b t = false) :
    ∑ t ∈ Finset.range 4096, scanTerm b q t = endSum b q 4095 := by
  have _ := hb
  rw [sum_range_succ]
  have hlast : scanTerm b q 4095 = 0 := by
    unfold scanTerm
    rw [if_neg (scanKeep_last b q)]
  rw [hlast, add_zero]
  unfold endSum
  rw [sum_filter]
  exact sum_congr rfl fun t ht => scanTerm_eq b q t (mem_range.1 ht)

/-- The scan's per-row counts add up to the number of non-empty runs. -/
theorem scan_cnt (b : ℕ → Bool) (q : ℕ → EReal) (hb : ∀ t, 4095 ≤ t → b t = false) :
    ∑ t ∈ Finset.range 4096, scanOne b q t = (((endCnt b 4095 : ℕ)) : EReal) := by
  have _ := hb
  rw [sum_range_succ]
  have hlast : scanOne b q 4095 = 0 := by
    unfold scanOne
    rw [if_neg (scanKeep_last b q)]
  rw [hlast, add_zero]
  unfold endCnt
  rw [← sum_ite_one]
  exact sum_congr rfl fun t ht => scanOne_eq b q t (mem_range.1 ht)

end Cert.RunSpec

end
-- ==== Proof.Bridge.lean ====
/-
  The two readings of "the sum of a column's run means" agree.

  The run number seg b t grows by one exactly at a boundary, so it is monotone, and for u ≤ t the pairs u and t
  are linked (no boundary strictly after u up to t) exactly when they carry the same run number.  A pair t below n
  ENDS its run when index t+1 is a boundary; then every pair after t has a larger run number, so the run ending at t
  is the whole of run number seg b t: the same sum, the same size.  On the ends the run number is injective (a later
  end has a strictly larger number), it stays within 0 … n, and every run number with a kept pair is the number of
  an end (walk right from that pair until the next index is a boundary; every index at or past n is one).  So summing
  the run means over the ends with a positive size is summing them over the run numbers with a positive size, and a
  run number with no kept pair has mean zero by definition.  The same bijection counts the non-empty runs.
-/
import proofs.«140218_j35270271434984_2_alg».proof.Proof.Spec

noncomputable section

namespace Cert.RunSpec

open Finset Idealize.ShloMosaic

/-! ## The run number steps by one at a boundary -/

theorem seg_succ (b : ℕ → Bool) (t : ℕ) :
    seg b (t + 1) = seg b t + (if b (t + 1) = true then 0 else 1) := by
  unfold seg
  rw [Finset.range_add_one (n := t + 1), Finset.filter_insert]
  by_cases h : b (t + 1) = true
  · simp [h]
  · have h' : b (t + 1) = false := by simpa using h
    rw [if_pos h', if_neg h, Finset.card_insert_of_notMem]
    simp

theorem seg_mono (b : ℕ → Bool) {u t : ℕ} (h : u ≤ t) : seg b u ≤ seg b t := by
  unfold seg
  exact Finset.card_le_card (Finset.filter_subset_filter _ (Finset.range_mono (by omega)))

theorem seg_le (b : ℕ → Bool) (t : ℕ) : seg b t ≤ t + 1 := by
  unfold seg
  exact (Finset.card_filter_le _ _).trans (by simp)

/-- After an end every run number is strictly larger. -/
theorem seg_lt_of_end (b : ℕ → Bool) (t u : ℕ) (he : b (t + 1) = false) (h : t < u) : seg b t < seg b u := by
  have h1 := seg_succ b t
  rw [if_neg (by simp [he])] at h1
  have h2 := seg_mono b (show t + 1 ≤ u from h)
  omega

/-! ## Linked pairs are the pairs with one run number -/

theorem linked_iff_seg (b : ℕ → Bool) (u t : ℕ) (h : u ≤ t) : linked b u t ↔ seg b u = seg b t := by
  induction t with
  | zero =>
    have hu : u = 0 := by omega
    subst hu
    constructor
    · intro _; rfl
    · intro _ v h1 h2; omega
  | succ t ih =>
    rcases Nat.lt_or_ge u (t + 1) with hlt | hge
    · have hut : u ≤ t := by omega
      have ih := ih hut
      have hm := seg_mono b hut
      have hs := seg_succ b t
      by_cases hb : b (t + 1) = true
      · rw [if_pos hb] at hs
        have hs' : seg b (t + 1) = seg b t := by omega
        rw [hs', ← ih]
        constructor
        · intro hl v h1 h2; exact hl v h1 (by omega)
        · intro hl v h1 h2
          rcases Nat.lt_or_ge v (t + 1) with h3 | h3
          · exact hl v h1 (by omega)
          · have hv : v = t + 1 := by omega
            rw [hv]; exact hb
      · rw [if_neg hb] at hs
        constructor
        · intro hl; exact absurd (hl (t + 1) hlt le_rfl) hb
        · intro he; omega
    · have hu : u = t + 1 := by omega
      subst hu
      constructor
      · intro _; rfl
      · intro _ v h1 h2; omega

/-! ## The run ending at an end is the whole run of that number -/

theorem filter_linked_eq (b : ℕ → Bool) (n t : ℕ) (ht : t < n) (he : b (t + 1) = false) :
    (range (t + 1)).filter (fun u => linked b u t) = (range n).filter (fun u => seg b u = seg b t) := by
  ext u
  simp only [mem_filter, mem_range]
  constructor
  · rintro ⟨h1, h2⟩
    exact ⟨by omega, (linked_iff_seg b u t (by omega)).1 h2⟩
  · rintro ⟨_, h2⟩
    have hut : u ≤ t := by
      by_contra hc
      have := seg_lt_of_end b t u he (by omega)
      omega
    exact ⟨by omega, (linked_iff_seg b u t hut).2 h2⟩

theorem runSum_eq (b : ℕ → Bool) (q : ℕ → EReal) (n t : ℕ) (ht : t < n) (he : b (t + 1) = false) :
    runSum b q t = segSum b q n (seg b t) := by
  unfold runSum segSum
  rw [filter_linked_eq b n t ht he]

theorem runCnt_eq (b : ℕ → Bool) (n t : ℕ) (ht : t < n) (he : b (t + 1) = false) :
    runCnt b t = segCnt b n (seg b t) := by
  unfold runCnt segCnt
  congr 1
  ext u
  simp only [mem_filter, mem_range]
  constructor
  · rintro ⟨h1, h2, h3⟩
    exact ⟨by omega, (linked_iff_seg b u t (by omega)).1 h2, h3⟩
  · rintro ⟨_, h2, h3⟩
    have hut : u ≤ t := by
      by_contra hc
      have := seg_lt_of_end b t u he (by omega)
      omega
    exact ⟨by omega, (linked_iff_seg b u t hut).2 h2, h3⟩

/-! ## Ends and run numbers correspond -/

/-- Walking right from a pair below n reaches the end of its run, with the same run number. -/
theorem exists_end (b : ℕ → Bool) (n : ℕ) (hb : ∀ t, n ≤ t → b t = false) :
    ∀ d u, n ≤ u + d → u < n → ∃ t, u ≤ t ∧ t < n ∧ seg b t = seg b u ∧ b (t + 1) = false := by
  intro d
  induction d with
  | zero => intro u h1 h2; omega
  | succ d ih =>
    intro u h1 h2
    by_cases hu : b (u + 1) = true
    · have hlt : u + 1 < n := by
        by_contra hc
        have := hb (u + 1) (by omega)
        rw [this] at hu
        exact Bool.false_ne_true hu
      obtain ⟨t, ht1, ht2, ht3, ht4⟩ := ih (u + 1) (by omega) hlt
      refine ⟨t, by omega, ht2, ?_, ht4⟩
      have hs := seg_succ b u
      rw [if_pos hu] at hs
      omega
    · exact ⟨u, le_rfl, h2, rfl, by simpa using hu⟩

/-- The ends of the non-empty runs, by run number. -/
def ends (b : ℕ → Bool) (n : ℕ) : Finset ℕ :=
  (range n).filter fun t => b (t + 1) = false ∧ 0 < segCnt b n (seg b t)

theorem seg_injOn_ends (b : ℕ → Bool) (n : ℕ) : Set.InjOn (seg b) (↑(ends b n) : Set ℕ) := by
  intro t ht t' ht' he
  unfold ends at ht ht'
  simp only [coe_filter, mem_range, Set.mem_setOf_eq] at ht ht'
  rcases lt_trichotomy t t' with h | h | h
  · have := seg_lt_of_end b t t' ht.2.1 h; omega
  · exact h
  · have := seg_lt_of_end b t' t ht'.2.1 h; omega

theorem image_ends (b : ℕ → Bool) (n : ℕ) (hb : ∀ t, n ≤ t → b t = false) :
    (ends b n).image (seg b) = (range (n + 1)).filter (fun k => 0 < segCnt b n k) := by
  ext k
  unfold ends
  simp only [mem_image, mem_filter, mem_range]
  constructor
  · rintro ⟨t, ⟨ht, _, h2⟩, rfl⟩
    exact ⟨by have := seg_le b t; omega, h2⟩
  · rintro ⟨_, hpos⟩
    have hpos' := hpos
    unfold segCnt at hpos'
    obtain ⟨u, hu⟩ := Finset.card_pos.1 hpos'
    rw [mem_filter, mem_range] at hu
    obtain ⟨hun, hsk, _⟩ := hu
    obtain ⟨t, _, htn, hst, hbt⟩ := exists_end b n hb (n - u) u (by omega) hun
    exact ⟨t, ⟨htn, hbt, by rw [hst, hsk]; exact hpos⟩, by rw [hst, hsk]⟩

theorem ends_eq (b : ℕ → Bool) (n : ℕ) :
    (range n).filter (fun t => b (t + 1) = false ∧ 0 < runCnt b t) = ends b n := by
  unfold ends
  apply Finset.filter_congr
  intro t ht
  rw [mem_range] at ht
  constructor
  · rintro ⟨h1, h2⟩; exact ⟨h1, by rw [← runCnt_eq b n t ht h1]; exact h2⟩
  · rintro ⟨h1, h2⟩; exact ⟨h1, by rw [runCnt_eq b n t ht h1]; exact h2⟩

/-! ## The two readings agree -/

theorem endSum_eq_colSum (b : ℕ → Bool) (q : ℕ → EReal) (n : ℕ) (hb : ∀ t, n ≤ t → b t = false) :
    endSum b q n = colSum b q n := by
  have h1 : endSum b q n = ∑ t ∈ ends b n, segMean b q n (seg b t) := by
    unfold endSum
    rw [ends_eq b n]
    apply Finset.sum_congr rfl
    intro t ht
    unfold ends at ht
    rw [mem_filter, mem_range] at ht
    obtain ⟨ht, h1, h2⟩ := ht
    rw [runSum_eq b q n t ht h1, runCnt_eq b n t ht h1, segMean, if_pos h2]
  rw [h1, ← Finset.sum_image (f := fun k => segMean b q n k) (seg_injOn_ends b n), image_ends b n hb,
    Finset.sum_filter, colSum]
  apply Finset.sum_congr rfl
  intro k _
  by_cases hk : 0 < segCnt b n k
  · rw [if_pos hk]
  · rw [if_neg hk, segMean, if_neg hk]

theorem endCnt_eq_colCnt (b : ℕ → Bool) (n : ℕ) (hb : ∀ t, n ≤ t → b t = false) :
    endCnt b n = colCnt b n := by
  unfold endCnt colCnt
  rw [ends_eq b n, ← image_ends b n hb, Finset.card_image_of_injOn (seg_injOn_ends b n)]

end Cert.RunSpec

end
-- ==== Proof.KernelValue.lean ====
/-
  The two result rows summed: the kernel's total of run means and its number of non-empty runs, as the
  specification's totals.  Entry `r` of a result row is column `r`'s sum over its 4096 rows of what the doubling scan
  contributes; the scan's contributions add up to the sum over the pairs that end a non-empty run, and that is the
  column's sum of run means by run number.
-/
import proofs.«140218_j35270271434984_2_alg».proof.Proof.KernelRun
import proofs.«140218_j35270271434984_2_alg».proof.Proof.ScanMath
import proofs.«140218_j35270271434984_2_alg».proof.Proof.Bridge
import Idealize.ShloMosaic.PureOps.Ideal.Laws

noncomputable section

open Idealize.ShloMosaic

namespace Cert.KernelIdeal.KernelValue

open Cert.KernelIdeal Cert.RunSpec Idealize.ShloMosaic.ValueIdx Finset

/-- Past the 4095 pairs every index is a boundary. -/
theorem bcol_tail (a1 : S4096x4096x1.Idx → BitVec 32) (r t : ℕ) (h : 4095 ≤ t) : bcol a1 r t = false :=
  decide_eq_false fun h' => absurd h'.1 (by omega)

/-- The first result row summed is the specification's total of run means. -/
theorem rowsum2 (a0 : S4096x4096x1.Idx → EReal) (a1 : S4096x4096x1.Idx → BitVec 32) :
    Host.reduceAdd (F := Ideal) (KernelRun.G2 a0 a1) (constant (F := Ideal) S_ .f32 0x00000000#32)
      Facts₀.reducesTo_S1x4096_S_d0_1 Facts₀.h_S_ = fun _ => totalSum a0 a1 := by
  funext j
  show Ideal.hostReduceAdd Facts₀.reducesTo_S1x4096_S_d0_1 (KernelRun.G2 a0 a1) (Ideal.ofBits .f32 0x00000000#32) j = _
  rw [Ideal.hostReduceAdd_total _ (fun b => b.elim0), Ideal.ofBits_zero_f32, zero_add, sum_idx2, Fin.sum_univ_one]
  show ∑ b : Fin 4096, (fun r : ℕ => ∑ t ∈ range 4096, scanTerm (bcol a1 r) (qcol a0 a1 r) t) b.val = _
  rw [Fin.sum_univ_eq_sum_range (fun r : ℕ => ∑ t ∈ range 4096, scanTerm (bcol a1 r) (qcol a0 a1 r) t) 4096]
  unfold totalSum
  refine Finset.sum_congr rfl fun r _ => ?_
  rw [scan_sum _ _ (bcol_tail a1 r), endSum_eq_colSum _ _ _ (bcol_tail a1 r)]

/-- The second result row summed is the specification's number of non-empty runs. -/
theorem rowsum3 (a0 : S4096x4096x1.Idx → EReal) (a1 : S4096x4096x1.Idx → BitVec 32) :
    Host.reduceAdd (F := Ideal) (KernelRun.G3 a0 a1) (constant (F := Ideal) S_ .f32 0x00000000#32)
      Facts₀.reducesTo_S1x4096_S_d0_1 Facts₀.h_S_ = fun _ => (((totalCnt a1 : ℕ)) : EReal) := by
  funext j
  show Ideal.hostReduceAdd Facts₀.reducesTo_S1x4096_S_d0_1 (KernelRun.G3 a0 a1) (Ideal.ofBits .f32 0x00000000#32) j = _
  rw [Ideal.hostReduceAdd_total _ (fun b => b.elim0), Ideal.ofBits_zero_f32, zero_add, sum_idx2, Fin.sum_univ_one]
  show ∑ b : Fin 4096, (fun r : ℕ => ∑ t ∈ range 4096, scanOne (bcol a1 r) (qcol a0 a1 r) t) b.val = _
  rw [Fin.sum_univ_eq_sum_range (fun r : ℕ => ∑ t ∈ range 4096, scanOne (bcol a1 r) (qcol a0 a1 r) t) 4096]
  unfold totalCnt
  rw [Nat.cast_sum]
  refine Finset.sum_congr rfl fun r _ => ?_
  rw [scan_cnt _ _ (bcol_tail a1 r), endCnt_eq_colCnt _ _ (bcol_tail a1 r)]

end Cert.KernelIdeal.KernelValue

end
-- ==== Proof.RefTerm.lean ====
/-
  The reference program's result as ONE pure term of its two argument arrays: the host operations of its
  straight line composed in order, with the intermediate arrays named after what they hold.
  Column `r` of the [4096, 4096] predictions `p` and signs `s`; pair `t` (0 ≤ t < 4095) joins rows `t` and `t+1`.
-/
import proofs.«140218_j35270271434984_2_alg».proof.ReferenceIdeal

noncomputable section

namespace Cert.ReferenceIdeal.RefTerm

open Idealize.ShloMosaic Cert.ReferenceIdeal

variable {F : FTy → Type} [FloatOps F] [Facts]
open Facts₀ Facts

/-- The predictions with the trailing unit axis dropped. -/
def p2 (a0 : FVec F S4096x4096x1 .f32) : FVec F S4096x4096 .f32 :=
  shapeCast S4096x4096 a0 shapeCasts_S4096x4096x1_S4096x4096

/-- The signs with the trailing unit axis dropped. -/
def s2 (a1 : IVec S4096x4096x1 32) : IVec S4096x4096 32 :=
  shapeCast S4096x4096 a1 shapeCasts_S4096x4096x1_S4096x4096

/-- Pair `t` of column `r` is kept: rows `t+1` and `t` carry the same sign. -/
def same (a1 : IVec S4096x4096x1 32) : IVec S4095x4096 1 :=
  cmpi .eq (extractStridedSlice S4095x4096 ![1, 0] (s2 a1) slices_S4096x4096_S4095x4096_1_0)
    (extractStridedSlice S4095x4096 ![0, 0] (s2 a1) slices_S4096x4096_S4095x4096_0_0)

/-- The increment of pair `t`: row `t+1` minus row `t`. -/
def incr (a0 : FVec F S4096x4096x1 .f32) : FVec F S4095x4096 .f32 :=
  subf (extractStridedSlice S4095x4096 ![1, 0] (p2 a0) slices_S4096x4096_S4095x4096_1_0)
    (extractStridedSlice S4095x4096 ![0, 0] (p2 a0) slices_S4096x4096_S4095x4096_0_0)

/-- The squared increment of each pair. -/
def sq (a0 : FVec F S4096x4096x1 .f32) : FVec F S4095x4096 .f32 := mulf (incr a0) (incr a0)

/-- One at a dropped pair (a boundary), zero at a kept one, as 32-bit integers. -/
def bnd (a1 : IVec S4096x4096x1 32) : IVec S4095x4096 32 := extui 32 (noti (same a1)) natLt_1_32

/-- The inclusive running count of boundaries down each column: a window of 4095 rows padded 4094 above. -/
def cums (a1 : IVec S4096x4096x1 32) : IVec S4095x4096 32 :=
  Host.reduceWindow IntOp.addi ![4095, 1] ![1, 1] ![4094, 0] ![0, 0] (bnd a1)
    (broadcastInDim S_ ![] bcast_S_S_ (constantI S_ 32 0#32))
    reduceWindows_S4095x4096_S4095x4096_w4095s1p4094_0_w1s1p0_0 h_S_

/-- Column `r`'s offset `4096 · r` at every pair of the column. -/
def colOff : IVec S4095x4096 32 :=
  broadcastInDim S4095x4096 ![0, 1] bcast_S1x4096_S4095x4096_0_1
    (muli (broadcastInDim S1x4096 ![1] bcast_S4096_S1x4096_1 (iotaInDim S4096 32 0))
      (broadcastInDim S1x4096 ![] bcast_S_S1x4096 (constantI S_ 32 4096#32)))

/-- The run number of each pair, made distinct across columns, flattened row-major. -/
def segId (a1 : IVec S4096x4096x1 32) : IVec S16773120 32 :=
  shapeCast S16773120 (addi (cums a1) colOff) shapeCasts_S4095x4096_S16773120

/-- One at a kept pair, zero at a boundary, as floats. -/
def wgt (a1 : IVec S4096x4096x1 32) : FVec F S4095x4096 .f32 := uitofp .f32 (same a1)

/-- The all-zero accumulator, one slot per run number. -/
def zero16 : FVec F S16777216 .f32 :=
  broadcastInDim S16777216 ![] bcast_S_S16777216 (constant S_ .f32 0x00000000#32)

/-- The run numbers as a column of one-component index vectors. -/
def idx (a1 : IVec S4096x4096x1 32) : IVec S16773120x1 32 :=
  broadcastInDim S16773120x1 ![0] bcast_S16773120_S16773120x1_0 (segId a1)

/-- Per run number, the sum of the kept pairs' squared increments. -/
def sums (a0 : FVec F S4096x4096x1 .f32) (a1 : IVec S4096x4096x1 32) : FVec F S16777216 .f32 :=
  Host.scatterAdd scatter_S16777216_S16773120x1_S16773120_n_0_0_1 zero16 (idx a1)
    (shapeCast S16773120 (mulf (sq a0) (wgt a1)) shapeCasts_S4095x4096_S16773120)

/-- Per run number, the number of kept pairs. -/
def cnts (a1 : IVec S4096x4096x1 32) : FVec F S16777216 .f32 :=
  Host.scatterAdd scatter_S16777216_S16773120x1_S16773120_n_0_0_1 zero16 (idx a1)
    (shapeCast S16773120 (wgt (F := F) a1) shapeCasts_S4095x4096_S16773120)

/-- The run has a kept pair. -/
def valid (a1 : IVec S4096x4096x1 32) : IVec S16777216 1 := cmpf .ogt (cnts (F := F) a1) zero16

/-- `x` where the flag is set, the scalar `y` elsewhere. -/
def whereV (c : IVec S16777216 1) (x : FVec F S16777216 .f32) (y : FVec F S_ .f32) : FVec F S16777216 .f32 :=
  select c x (broadcastInDim S16777216 ![] bcast_S_S16777216 (id y))

/-- Per run number, the mean squared increment of the run, zero for an empty run. -/
def means (a0 : FVec F S4096x4096x1 .f32) (a1 : IVec S4096x4096x1 32) : FVec F S16777216 .f32 :=
  whereV (valid (F := F) a1)
    (Host.divf (sums a0 a1) (whereV (valid (F := F) a1) (cnts a1) (constant S_ .f32 0x3F800000#32)))
    (constant S_ .f32 0x00000000#32)

/-- The number of non-empty runs, as a float. -/
def nValid (a1 : IVec S4096x4096x1 32) : FVec F S_ .f32 :=
  sitofp .f32 (Host.reduce IntOp.addi (extui 32 (valid (F := F) a1) natLt_1_32) (constantI S_ 32 0#32)
    reducesTo_S16777216_S_d0 h_S_)

/-- The sum of the run means. -/
def total (a0 : FVec F S4096x4096x1 .f32) (a1 : IVec S4096x4096x1 32) : FVec F S_ .f32 :=
  Host.reduceAdd (means a0 a1) (constant S_ .f32 0x00000000#32) reducesTo_S16777216_S_d0 h_S_

/-- The mean of the run means: `tot / max n 1` when `n > 0`, else zero. -/
def finish (tot n : FVec F S_ .f32) : FVec F S_ .f32 :=
  select (cmpf .ogt n (constant S_ .f32 0x00000000#32))
    (Host.divf tot (maximumf n (constant S_ .f32 0x3F800000#32)))
    (id (constant S_ .f32 0x00000000#32))

/-- The reference's result. -/
def out (a0 : FVec F S4096x4096x1 .f32) (a1 : IVec S4096x4096x1 32) : FVec F S_ .f32 :=
  finish (total a0 a1) (nValid (F := F) a1)

end Cert.ReferenceIdeal.RefTerm

end
-- ==== Proof.RefRun.lean ====
/-
  The reference program's run. The program is a straight line of sixty host operations on whole arrays once the
  functions it calls are read at their call sites (the running count's window sum, the two selections against a
  broadcast scalar, the final scalar selection). From any memory with zero counters, every weakly fair execution
  terminates; the result buffer then holds `RefTerm.out` of the two argument arrays as they were at the start,
  and the two argument arrays are unchanged.
-/
import proofs.«140218_j35270271434984_2_alg».proof.Proof.Gen.ReferenceIdeal
import proofs.«140218_j35270271434984_2_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- The program's sixty operations in order, each called function's operations at its call site over that call's
    buffers: the window sum's three after the boundary flags, each array selection's three (the scalar kept at its
    own type, broadcast, the selection), the scalar selection's two at the end. -/
abbrev ops : List (HloOp τ sig (Elt F)) :=
  [ reshape main_arg0 main_v0 rfl shapeCasts_S4096x4096x1_S4096x4096,
    reshape main_arg1 main_v1 rfl shapeCasts_S4096x4096x1_S4096x4096,
    unary main_v1 main_v2 ((extractStridedSlice S4095x4096 ![1, 0] · slices_S4096x4096_S4095x4096_1_0) : (⟨S4096x4096, .i32⟩ : BufTy).Contents (Elt F) → (⟨S4095x4096, .i32⟩ : BufTy).Contents (Elt F)),
    unary main_v1 main_v3 ((extractStridedSlice S4095x4096 ![0, 0] · slices_S4096x4096_S4095x4096_0_0) : (⟨S4096x4096, .i32⟩ : BufTy).Contents (Elt F) → (⟨S4095x4096, .i32⟩ : BufTy).Contents (Elt F)),
    binary main_v2 main_v3 main_v4 (cmpi .eq : (⟨S4095x4096, .i32⟩ : BufTy).Contents (Elt F) → (⟨S4095x4096, .i32⟩ : BufTy).Contents (Elt F) → (⟨S4095x4096, .i1⟩ : BufTy).Contents (Elt F)),
    unary main_v0 main_v5 ((extractStridedSlice S4095x4096 ![1, 0] · slices_S4096x4096_S4095x4096_1_0) : (⟨S4096x4096, .f32⟩ : BufTy).Contents (Elt F) → (⟨S4095x4096, .f32⟩ : BufTy).Contents (Elt F)),
    unary main_v0 main_v6 ((extractStridedSlice S4095x4096 ![0, 0] · slices_S4096x4096_S4095x4096_0_0) : (⟨S4096x4096, .f32⟩ : BufTy).Contents (Elt F) → (⟨S4095x4096, .f32⟩ : BufTy).Contents (Elt F)),
    binary main_v5 main_v6 main_v7 (subf : (⟨S4095x4096, .f32⟩ : BufTy).Contents (Elt F) → (⟨S4095x4096, .f32⟩ : BufTy).Contents (Elt F) → (⟨S4095x4096, .f32⟩ : BufTy).Contents (Elt F)),
    binary main_v7 main_v7 main_v8 (mulf : (⟨S4095x4096, .f32⟩ : BufTy).Contents (Elt F) → (⟨S4095x4096, .f32⟩ : BufTy).Contents (Elt F) → (⟨S4095x4096, .f32⟩ : BufTy).Contents (Elt F)),
    unary main_v4 main_v9 (noti : (⟨S4095x4096, .i1⟩ : BufTy).Contents (Elt F) → (⟨S4095x4096, .i1⟩ : BufTy).Contents (Elt F)),
    unary main_v9 main_v10 ((extui 32 · natLt_1_32) : (⟨S4095x4096, .i1⟩ : BufTy).Contents (Elt F) → (⟨S4095x4096, .i32⟩ : BufTy).Contents (Elt F)),
    TRef.nullary main_call0.call0.c (constantI S_ 32 0#32),
    TRef.unary main_call0.call0.c main_call0.call0.v0 (broadcastInDim S_ ![] bcast_S_S_),
    TRef.binary (.of main_v10) main_call0.call0.v0 main_call0.call0.v1 (fun x v => Host.reduceWindow IntOp.addi ![4095, 1] ![1, 1] ![4094, 0] ![0, 0] x v reduceWindows_S4095x4096_S4095x4096_w4095s1p4094_0_w1s1p0_0 h_S_),
    nullary main_v12 (iotaInDim S4096 32 0),
    unary main_v12 main_v13 (broadcastInDim S1x4096 ![1] bcast_S4096_S1x4096_1 : (⟨S4096, .i32⟩ : BufTy).Contents (Elt F) → (⟨S1x4096, .i32⟩ : BufTy).Contents (Elt F)),
    nullary main_c (constantI S_ 32 4096#32),
    unary main_c main_v14 (broadcastInDim S1x4096 ![] bcast_S_S1x4096 : (⟨S_, .i32⟩ : BufTy).Contents (Elt F) → (⟨S1x4096, .i32⟩ : BufTy).Contents (Elt F)),
    binary main_v13 main_v14 main_v15 (muli : (⟨S1x4096, .i32⟩ : BufTy).Contents (Elt F) → (⟨S1x4096, .i32⟩ : BufTy).Contents (Elt F) → (⟨S1x4096, .i32⟩ : BufTy).Contents (Elt F)),
    unary main_v15 main_v16 (broadcastInDim S4095x4096 ![0, 1] bcast_S1x4096_S4095x4096_0_1 : (⟨S1x4096, .i32⟩ : BufTy).Contents (Elt F) → (⟨S4095x4096, .i32⟩ : BufTy).Contents (Elt F)),
    binary main_v11 main_v16 main_v17 (addi : (⟨S4095x4096, .i32⟩ : BufTy).Contents (Elt F) → (⟨S4095x4096, .i32⟩ : BufTy).Contents (Elt F) → (⟨S4095x4096, .i32⟩ : BufTy).Contents (Elt F)),
    reshape main_v17 main_v18 rfl shapeCasts_S4095x4096_S16773120,
    unary main_v4 main_v19 (uitofp .f32 : (⟨S4095x4096, .i1⟩ : BufTy).Contents (Elt F) → (⟨S4095x4096, .f32⟩ : BufTy).Contents (Elt F)),
    binary main_v8 main_v19 main_v20 (mulf : (⟨S4095x4096, .f32⟩ : BufTy).Contents (Elt F) → (⟨S4095x4096, .f32⟩ : BufTy).Contents (Elt F) → (⟨S4095x4096, .f32⟩ : BufTy).Contents (Elt F)),
    reshape main_v20 main_v21 rfl shapeCasts_S4095x4096_S16773120,
    nullary main_cst (constant S_ .f32 0x00000000#32),
    unary main_cst main_v22 (broadcastInDim S16777216 ![] bcast_S_S16777216 : (⟨S_, .f32⟩ : BufTy).Contents (Elt F) → (⟨S16777216, .f32⟩ : BufTy).Contents (Elt F)),
    unary main_v18 main_v23 (broadcastInDim S16773120x1 ![0] bcast_S16773120_S16773120x1_0 : (⟨S16773120, .i32⟩ : BufTy).Contents (Elt F) → (⟨S16773120x1, .i32⟩ : BufTy).Contents (Elt F)),
    ternary main_v22 main_v23 main_v21 main_v24 ((fun x i u => Host.scatterAdd scatter_S16777216_S16773120x1_S16773120_n_0_0_1 x i u) : (⟨S16777216, .f32⟩ : BufTy).Contents (Elt F) → (⟨S16773120x1, .i32⟩ : BufTy).Contents (Elt F) → (⟨S16773120, .f32⟩ : BufTy).Contents (Elt F) → (⟨S16777216, .f32⟩ : BufTy).Contents (Elt F)),
    reshape main_v19 main_v25 rfl shapeCasts_S4095x4096_S16773120,
    nullary main_cst_0 (constant S_ .f32 0x00000000#32),
    unary main_cst_0 main_v26 (broadcastInDim S16777216 ![] bcast_S_S16777216 : (⟨S_, .f32⟩ : BufTy).Contents (Elt F) → (⟨S16777216, .f32⟩ : BufTy).Contents (Elt F)),
    unary main_v18 main_v27 (broadcastInDim S16773120x1 ![0] bcast_S16773120_S16773120x1_0 : (⟨S16773120, .i32⟩ : BufTy).Contents (Elt F) → (⟨S16773120x1, .i32⟩ : BufTy).Contents (Elt F)),
    ternary main_v26 main_v27 main_v25 main_v28 ((fun x i u => Host.scatterAdd scatter_S16777216_S16773120x1_S16773120_n_0_0_1 x i u) : (⟨S16777216, .f32⟩ : BufTy).Contents (Elt F) → (⟨S16773120x1, .i32⟩ : BufTy).Contents (Elt F) → (⟨S16773120, .f32⟩ : BufTy).Contents (Elt F) → (⟨S16777216, .f32⟩ : BufTy).Contents (Elt F)),
    nullary main_cst_1 (constant S_ .f32 0x00000000#32),
    unary main_cst_1 main_v29 (broadcastInDim S16777216 ![] bcast_S_S16777216 : (⟨S_, .f32⟩ : BufTy).Contents (Elt F) → (⟨S16777216, .f32⟩ : BufTy).Contents (Elt F)),
    binary main_v28 main_v29 main_v30 (cmpf .ogt : (⟨S16777216, .f32⟩ : BufTy).Contents (Elt F) → (⟨S16777216, .f32⟩ : BufTy).Contents (Elt F) → (⟨S16777216, .i1⟩ : BufTy).Contents (Elt F)),
    nullary main_cst_2 (constant S_ .f32 0x3F800000#32),
    TRef.unary (.of main_cst_2) main_call1.v0 id,
    TRef.unary main_call1.v0 main_call1.v1 (broadcastInDim S16777216 ![] bcast_S_S16777216),
    TRef.ternary (.of main_v30) (.of main_v28) main_call1.v1 main_call1.v2 select,
    binary main_v24 main_v31 main_v32 (Host.divf : (⟨S16777216, .f32⟩ : BufTy).Contents (Elt F) → (⟨S16777216, .f32⟩ : BufTy).Contents (Elt F) → (⟨S16777216, .f32⟩ : BufTy).Contents (Elt F)),
    nullary main_cst_3 (constant S_ .f32 0x00000000#32),
    TRef.unary (.of main_cst_3) main_call2.v0 id,
    TRef.unary main_call2.v0 main_call2.v1 (broadcastInDim S16777216 ![] bcast_S_S16777216),
    TRef.ternary (.of main_v30) (.of main_v32) main_call2.v1 main_call2.v2 select,
    unary main_v30 main_v34 ((extui 32 · natLt_1_32) : (⟨S16777216, .i1⟩ : BufTy).Contents (Elt F) → (⟨S16777216, .i32⟩ : BufTy).Contents (Elt F)),
    nullary main_c_4 (constantI S_ 32 0#32),
    binary main_v34 main_c_4 main_v35 ((fun x v => Host.reduce IntOp.addi x v reducesTo_S16777216_S_d0 h_S_) : (⟨S16777216, .i32⟩ : BufTy).Contents (Elt F) → (⟨S_, .i32⟩ : BufTy).Contents (Elt F) → (⟨S_, .i32⟩ : BufTy).Contents (Elt F)),
    unary main_v35 main_v36 (sitofp .f32 : (⟨S_, .i32⟩ : BufTy).Contents (Elt F) → (⟨S_, .f32⟩ : BufTy).Contents (Elt F)),
    nullary main_cst_5 (constant S_ .f32 0x00000000#32),
    binary main_v36 main_cst_5 main_v37 (cmpf .ogt : (⟨S_, .f32⟩ : BufTy).Contents (Elt F) → (⟨S_, .f32⟩ : BufTy).Contents (Elt F) → (⟨S_, .i1⟩ : BufTy).Contents (Elt F)),
    nullary main_cst_6 (constant S_ .f32 0x00000000#32),
    binary main_v33 main_cst_6 main_v38 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_7 (constant S_ .f32 0x3F800000#32),
    binary main_v36 main_cst_7 main_v39 (maximumf : (⟨S_, .f32⟩ : BufTy).Contents (Elt F) → (⟨S_, .f32⟩ : BufTy).Contents (Elt F) → (⟨S_, .f32⟩ : BufTy).Contents (Elt F)),
    binary main_v38 main_v39 main_v40 (Host.divf : (⟨S_, .f32⟩ : BufTy).Contents (Elt F) → (⟨S_, .f32⟩ : BufTy).Contents (Elt F) → (⟨S_, .f32⟩ : BufTy).Contents (Elt F)),
    nullary main_cst_8 (constant S_ .f32 0x00000000#32),
    TRef.unary (.of main_cst_8) main_call3.v0 id,
    TRef.ternary (.of main_v37) (.of main_v40) main_call3.v0 main_call3.v1 select ]

-- sixty binds re-associated: the rewriting under the chain recurses once per statement
set_option maxRecDepth 4096 in
/-- The program is that straight line: the called functions' definitions read at their calls, both sides are one
    chain of operation steps once sequencing is re-associated. -/
theorem main_eq (c : Dev nD) : main (F := F) c = seq ops := by
  simp only [main, fn_cumsum.body, fn_cumsum_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    unary_bufs_sub .., binary_bufs_sub .., nullary_bufs_sub .., unary_bufs_sub .., nullary_bufs_sub .., unary_bufs_sub ..,
    binary_bufs_sub .., unary_bufs_sub .., binary_bufs_sub .., reshape_bufs_sub .., unary_bufs_sub .., binary_bufs_sub ..,
    reshape_bufs_sub .., nullary_bufs_sub .., unary_bufs_sub .., unary_bufs_sub .., ternary_bufs_sub .., reshape_bufs_sub ..,
    nullary_bufs_sub .., unary_bufs_sub .., unary_bufs_sub .., ternary_bufs_sub .., nullary_bufs_sub .., unary_bufs_sub ..,
    binary_bufs_sub .., nullary_bufs_sub .., unary_bufs_sub .., unary_bufs_sub .., ternary_bufs_sub .., binary_bufs_sub ..,
    nullary_bufs_sub .., unary_bufs_sub .., unary_bufs_sub .., ternary_bufs_sub .., unary_bufs_sub .., nullary_bufs_sub ..,
    binary_bufs_sub .., unary_bufs_sub .., nullary_bufs_sub .., binary_bufs_sub .., nullary_bufs_sub .., binary_bufs_sub ..,
    nullary_bufs_sub .., binary_bufs_sub .., binary_bufs_sub .., nullary_bufs_sub .., unary_bufs_sub .., ternary_bufs_sub ..⟩

attribute [local irreducible] Host.reduce Host.reduceWindow Host.scatterAdd Host.reduceAdd in
set_option maxRecDepth 8192 in
set_option maxHeartbeats 400000 in
/-- What the result buffer holds after the sixty operations, from contents `V`: the composed term of the two
    arguments' contents. Each operation's result is read at its own buffer as its function of its operands' contents
    and at any other buffer as what was there; what remains is the same composition of whole-array operations on
    both sides (a value moved to a called function's buffer and back is the value). The reductions, the window sum
    and the scatter-add are kept folded: the equation never looks inside them. -/
theorem out_eq (V : Valuation τ sig (Elt F)) :
    after ops V (main_v41 : DevRef τ sig)
      = RefTerm.out (V (main_arg0 : DevRef τ sig)) (V (main_arg1 : DevRef τ sig)) := by
  after_results_simp
  rfl

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-- On every device, for any float values, from any memory with zero counters: every weakly fair execution of the
    program terminates with the result buffer at `RefTerm.out` of the two arguments' contents at the start, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = RefTerm.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v41).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.Assemble.lean ====
/-
  The two runs set side by side.  Both programs end by the same scalar arithmetic on a pair (sum of the run means,
  number of non-empty runs): `tot / max n 1` when `n > 0`, else zero.  The kernel's pair is its two result rows summed,
  the reference's the sum of its per-run means and the count of its non-empty runs; each pair equals the
  specification's `(totalSum, totalCnt)` of the argument arrays, so the two results agree whatever the arguments hold.
-/
import proofs.«140218_j35270271434984_2_alg».proof.Defs
import proofs.«140218_j35270271434984_2_alg».proof.Proof.Gen.Kernel.Frame
import proofs.«140218_j35270271434984_2_alg».proof.Proof.Gen.KernelIdeal.Frame
import proofs.«140218_j35270271434984_2_alg».proof.Proof.Gen.ReferenceIdeal
import proofs.«140218_j35270271434984_2_alg».proof.Proof.Gen.Pre_finite_inputs
import proofs.«140218_j35270271434984_2_alg».proof.Proof.KernelRun
import proofs.«140218_j35270271434984_2_alg».proof.Proof.KernelValue
import proofs.«140218_j35270271434984_2_alg».proof.Proof.RefRun

noncomputable section

open Idealize.ShloMosaic Idealize.ShloMosaic.TcCoe Idealize.SL.Sem

namespace Cert.Proof.Assemble

open Cert.RunSpec

/-- The kernel program's closing arithmetic is the reference's. -/
theorem finish_eq (tot n : Cert.KernelIdeal.S_.Idx → EReal) :
    Cert.KernelIdeal.KernelRun.finishK tot n = Cert.ReferenceIdeal.RefTerm.finish (F := Ideal) tot n := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The value claim from the four facts about the two sides: what the body leaves in each result block, and the
    reference's two sums as the specification's totals. -/
theorem algebraic_of (hS : Cert.KernelIdeal.KernelRun.OutSum) (hC : Cert.KernelIdeal.KernelRun.OutCnt)
    (htot : ∀ (a0 : Cert.ReferenceIdeal.S4096x4096x1.Idx → EReal) (a1 : Cert.ReferenceIdeal.S4096x4096x1.Idx → BitVec 32),
      Cert.ReferenceIdeal.RefTerm.total (F := Ideal) a0 a1 = fun _ => totalSum a0 a1)
    (hn : ∀ (a1 : Cert.ReferenceIdeal.S4096x4096x1.Idx → BitVec 32),
      Cert.ReferenceIdeal.RefTerm.nValid (F := Ideal) a1 = fun _ => (((totalCnt a1 : ℕ)) : EReal)) :
    Cert.algebraic_KernelIdeal_ReferenceIdeal := by
  intro m ρ m' ρ' _ hagree
  refine ⟨fun c => Cert.ReferenceIdeal.RefTerm.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.KernelRun.run m ρ hS hC)
    rw [Cert.KernelIdeal.KernelValue.rowsum2, Cert.KernelIdeal.KernelValue.rowsum3, finish_eq]
    show _ = Cert.ReferenceIdeal.RefTerm.finish (F := Ideal) (Cert.ReferenceIdeal.RefTerm.total (F := Ideal) _ _)
      (Cert.ReferenceIdeal.RefTerm.nValid (F := Ideal) _)
    rw [htot, hn]
  · refine (θ_run Cert.ReferenceIdeal.defs _ _).mono (fun r h c => ⟨(h c).1.trans ?_, (h c).2⟩)
      (Cert.ReferenceIdeal.RefRun.run (F := Ideal) m' ρ')
    rw [(hagree c).1, (hagree c).2]

end Cert.Proof.Assemble

end
-- ==== Proof.KernelVec.lean ====
/-
  The kernel body's arithmetic as vectors: the start of the scan (the pair's weighted squared increment, its weight and
  its boundary flag, each a [4096, 128] vector), ONE doubling step on the three vectors, the twelve steps, and the
  finishing operations (which rows contribute, what they contribute, and the column sums).  Each definition applies the
  same operations in the same order as the body does; nothing is proved here.
-/
import proofs.«140218_j35270271434984_2_alg».proof.Proof.Gen.KernelIdeal
import Idealize.ShloMosaic.PureOps.Ideal

noncomputable section

namespace Cert.KernelIdeal.KernelCol

open Cert.KernelIdeal Cert.KernelIdeal.Gen Idealize.ShloMosaic

variable {F : FTy → Type} [FloatOps F]

/-- The row number of every element, as a 32-bit word. -/
abbrev rowV : IVec S4096x128 32 := iota .tc S4096x128 32 [0] iota_S4096x128_d0_w32

/-- "Not the last row", as a bit. -/
def notLastV : IVec S4096x128 1 :=
  xori (cmpi .eq rowV (broadcast S4096x128 4095#32)) (constantI S4096x128 1 1#1)

/-- The pair's "kept" bit: the next row (cyclically) carries the same sign, and this is not the last row. -/
def sameV (x1 : Vec F S4096x128 .i32) : IVec S4096x128 1 :=
  andi (cmpi .eq (shapeCast S4096x128 x1 shapeCasts_S4096x128_S4096x128)
      (dynamicRotate 0 4095#32 none (shapeCast S4096x128 x1 shapeCasts_S4096x128_S4096x128) rotates_S4096x128_d0))
    notLastV

/-- The three vectors the scan carries: running sum, running count, boundary flag. -/
structure VSt (F : FTy → Type) where
  x : FVec F S4096x128 .f32
  w : FVec F S4096x128 .f32
  f : IVec S4096x128 32

/-- The pair's weight. -/
def wV (x1 : Vec F S4096x128 .i32) : FVec F S4096x128 .f32 := sitofp .f32 (extui 32 (sameV x1) natLt_1_32)

/-- The boundary flag word. -/
def fV (x1 : Vec F S4096x128 .i32) : IVec S4096x128 32 :=
  extui 32 (xori (sameV x1) (constantI S4096x128 1 1#1)) natLt_1_32

/-- The weighted squared increment. -/
def xV (x0 : Vec F S4096x128 .f32) (x1 : Vec F S4096x128 .i32) : FVec F S4096x128 .f32 :=
  mulf (mulf (subf (dynamicRotate 0 4095#32 none (shapeCast S4096x128 x0 shapeCasts_S4096x128_S4096x128) rotates_S4096x128_d0)
        (shapeCast S4096x128 x0 shapeCasts_S4096x128_S4096x128))
      (subf (dynamicRotate 0 4095#32 none (shapeCast S4096x128 x0 shapeCasts_S4096x128_S4096x128) rotates_S4096x128_d0)
        (shapeCast S4096x128 x0 shapeCasts_S4096x128_S4096x128)))
    (wV x1)

/-- The scan's start. -/
def vinit (x0 : Vec F S4096x128 .f32) (x1 : Vec F S4096x128 .i32) : VSt F := ⟨xV x0 x1, wV x1, fV x1⟩

/-- The vector `d` rows earlier, the filler before the start. -/
def shiftV {α : Type} (d : ℕ) (v : S4096x128.Idx → α) (z : α) : S4096x128.Idx → α :=
  select (cmpi .sge rowV (broadcast S4096x128 (BitVec.ofNat 32 d)))
    (dynamicRotate 0 (BitVec.ofNat 32 d) none v rotates_S4096x128_d0) (broadcast S4096x128 z)

/-- One doubling step with offset `d` on the three vectors. -/
def vstep (d : ℕ) (s : VSt F) : VSt F where
  x := select (cmpi .sgt s.f (broadcast S4096x128 0#32)) s.x (addf s.x (shiftV d s.x (Scalar.ofBits .f32 0x00000000#32)))
  w := select (cmpi .sgt s.f (broadcast S4096x128 0#32)) s.w (addf s.w (shiftV d s.w (Scalar.ofBits .f32 0x00000000#32)))
  f := maxsi s.f (shiftV d s.f 0#32)

/-- Twelve steps. -/
def vall (s : VSt F) : VSt F :=
  vstep 2048 (vstep 1024 (vstep 512 (vstep 256 (vstep 128 (vstep 64
    (vstep 32 (vstep 16 (vstep 8 (vstep 4 (vstep 2 (vstep 1 s)))))))))))

/-- "The next row's flag is set, and this is not the last row", as a bit. -/
def isEndV (x1 : Vec F S4096x128 .i32) : IVec S4096x128 1 :=
  andi (cmpi .sgt (dynamicRotate 0 4095#32 none (fV x1) rotates_S4096x128_d0) (broadcast S4096x128 0#32)) notLastV

/-- "The running count is positive", as a bit. -/
def validV (s : VSt F) : IVec S4096x128 1 := cmpf .ogt s.w (broadcast S4096x128 (Scalar.ofBits .f32 0x3F000000#32))

/-- The row contributes. -/
def keepV (x1 : Vec F S4096x128 .i32) (s : VSt F) : IVec S4096x128 1 := andi (isEndV x1) (validV s)

/-- What each row adds to its column's sum. -/
def contribSumV (x1 : Vec F S4096x128 .i32) (s : VSt F) : FVec F S4096x128 .f32 :=
  select (keepV x1 s)
    (select (validV s) (divf s.x (maximumf s.w (broadcast S4096x128 (Scalar.ofBits .f32 0x3F800000#32))))
      (broadcast S4096x128 (Scalar.ofBits .f32 0x00000000#32)))
    (broadcast S4096x128 (Scalar.ofBits .f32 0x00000000#32))

/-- What each row adds to its column's count. -/
def contribCntV (x1 : Vec F S4096x128 .i32) (s : VSt F) : FVec F S4096x128 .f32 :=
  select (keepV x1 s) (broadcast S4096x128 (Scalar.ofBits .f32 0x3F800000#32))
    (broadcast S4096x128 (Scalar.ofBits .f32 0x00000000#32))

/-- The column sums of a [4096,128] vector, as a [1,128] block. -/
def colSumV (v : FVec F S4096x128 .f32) : FVec F S1x128 .f32 :=
  shapeCast S1x128 (multiReduction .add [0] S128 v 0x00000000#32 reduces_S4096x128_S128 (.inl rfl) rfl) shapeCasts_S128_S1x128

/-- "Row number at least `d`", as a bit. -/
abbrev geV (d : ℕ) : IVec S4096x128 1 := cmpi .sge rowV (broadcast S4096x128 (BitVec.ofNat 32 d))
/-- The float zero. -/
abbrev z0 : F .f32 := Scalar.ofBits .f32 0x00000000#32
/-- "The flag is set", as a bit. -/
abbrev setV (f : IVec S4096x128 32) : IVec S4096x128 1 := cmpi .sgt f (broadcast S4096x128 0#32)

end Cert.KernelIdeal.KernelCol

end
-- ==== Proof.KernelStage.lean ====
/-
  The printed body IS the vector scan: each named piece of the body's arithmetic (the generated payload terms) is, by
  unfolding, one of the vectors of KernelVec.lean — the start, one, two or three doubling steps applied to the state
  before, or the finishing operations — and so each output block the body leaves is the column sums of the rows'
  contributions after the twelve steps.
-/
import proofs.«140218_j35270271434984_2_alg».proof.Proof.Gen.KernelIdeal.Frame
import proofs.«140218_j35270271434984_2_alg».proof.Proof.KernelVec
import Idealize.ShloMosaic.Lib.Pipeline.Value

noncomputable section

namespace Cert.KernelIdeal.KernelCol

open Cert.KernelIdeal Cert.KernelIdeal.Gen Idealize.ShloMosaic

variable {F : FTy → Type} [FloatOps F]

/-! ## The printed payloads are these vectors (each by unfolding) -/

section Stages
variable (x0 : Vec F S4096x128 .f32) (x1 : Vec F S4096x128 .i32) (s : VSt F)

theorem pay5_eq : k0_pay5 x1 = (vinit x0 x1).w := rfl
theorem pay6_eq : k0_pay6 x1 = (vinit x0 x1).f := rfl
theorem pay7_eq : k0_pay7 x1 = isEndV x1 := rfl
theorem pay9_eq : k0_pay9 x1 = shiftV 1 (vinit x0 x1).w z0 := rfl
theorem pay10_eq : k0_pay10 x1 = shiftV 1 (vinit x0 x1).f 0#32 := rfl
theorem pay11_eq : k0_pay11 x1 = setV (vinit x0 x1).f := rfl
theorem pay12_eq : k0_pay12 x0 x1 = (vstep 1 (vinit x0 x1)).x := rfl

theorem pay19_eq : k0_pay19 rowV s.f (shiftV 1 s.f 0#32) (vstep 1 s).x = (vstep 4 (vstep 2 (vstep 1 s))).x := rfl
theorem pay20_eq : k0_pay20 rowV s.w s.f (shiftV 1 s.w z0) (shiftV 1 s.f 0#32) (setV s.f)
    = (vstep 4 (vstep 2 (vstep 1 s))).w := rfl
theorem pay21_eq : k0_pay21 rowV s.f (shiftV 1 s.f 0#32) = (vstep 4 (vstep 2 (vstep 1 s))).f := rfl
theorem pay22_eq : k0_pay22 rowV = geV 8 := rfl
theorem pay23_eq : k0_pay23 rowV s.f (shiftV 1 s.f 0#32) (vstep 1 s).x
    = dynamicRotate 0 8#32 none (vstep 4 (vstep 2 (vstep 1 s))).x rotates_S4096x128_d0 := rfl

theorem pay28_eq : k0_pay28 rowV s.x s.f (geV 8) (dynamicRotate 0 8#32 none s.x rotates_S4096x128_d0)
    = (vstep 16 (vstep 8 s)).x := rfl
theorem pay29_eq : k0_pay29 rowV s.w s.f (geV 8) = (vstep 16 (vstep 8 s)).w := rfl
theorem pay30_eq : k0_pay30 rowV s.f (geV 8) = (vstep 16 (vstep 8 s)).f := rfl
theorem pay31_eq : k0_pay31 rowV = geV 32 := rfl
theorem pay32_eq : k0_pay32 rowV s.x s.f (geV 8) (dynamicRotate 0 8#32 none s.x rotates_S4096x128_d0)
    = shiftV 32 (vstep 16 (vstep 8 s)).x z0 := rfl
theorem pay33_eq : k0_pay33 rowV s.w s.f (geV 8) = shiftV 32 (vstep 16 (vstep 8 s)).w z0 := rfl

theorem pay38_eq : k0_pay38 rowV s.x s.f (geV 32) (shiftV 32 s.x z0) = (vstep 64 (vstep 32 s)).x := rfl
theorem pay39_eq : k0_pay39 rowV s.w s.f (geV 32) (shiftV 32 s.w z0) = (vstep 64 (vstep 32 s)).w := rfl
theorem pay40_eq : k0_pay40 rowV s.f (geV 32) = (vstep 64 (vstep 32 s)).f := rfl
theorem pay42_eq : k0_pay42 rowV s.x s.f (geV 32) (shiftV 32 s.x z0) = shiftV 128 (vstep 64 (vstep 32 s)).x z0 := rfl
theorem pay43_eq : k0_pay43 rowV s.w s.f (geV 32) (shiftV 32 s.w z0) = shiftV 128 (vstep 64 (vstep 32 s)).w z0 := rfl
theorem pay44_eq : k0_pay44 rowV s.f (geV 32) = shiftV 128 (vstep 64 (vstep 32 s)).f 0#32 := rfl
theorem pay45_eq : k0_pay45 rowV s.f (geV 32) = setV (vstep 64 (vstep 32 s)).f := rfl

theorem pay52_eq : k0_pay52 rowV s.x s.f (shiftV 128 s.x z0) (shiftV 128 s.f 0#32) (setV s.f)
    = (vstep 512 (vstep 256 (vstep 128 s))).x := rfl
theorem pay53_eq : k0_pay53 rowV s.w s.f (shiftV 128 s.w z0) (shiftV 128 s.f 0#32) (setV s.f)
    = (vstep 512 (vstep 256 (vstep 128 s))).w := rfl
theorem pay54_eq : k0_pay54 rowV s.f (shiftV 128 s.f 0#32) = (vstep 512 (vstep 256 (vstep 128 s))).f := rfl
theorem pay55_eq : k0_pay55 rowV = geV 1024 := rfl

theorem pay62_eq : k0_pay62 rowV (isEndV x1) s.x s.w s.f (geV 1024) = contribSumV x1 (vstep 2048 (vstep 1024 s)) := rfl
theorem pay61_eq : k0_pay61 rowV (isEndV x1) s.w s.f (geV 1024) = keepV x1 (vstep 2048 (vstep 1024 s)) := rfl
theorem pay1_eq (v : FVec F S4096x128 .f32) : k0_pay1 v = colSumV v := rfl
theorem pay2_eq : k0_pay2 (keepV x1 s) z0 k0_pay63 = colSumV (contribCntV x1 s) := rfl

end Stages

/-! ## The two output blocks -/

/-- The zero offsets of a whole-block access, however spelt. -/
theorem hz : (![0, 0] : Fin 2 → Nat) = fun _ => 0 := funext fun a => by fin_cases a <;> rfl

/-- The first output block is the column sums of the rows' contributions to the sum. -/
theorem out0_2_eq (x0 : Vec F S4096x128 .f32) (x1 : Vec F S4096x128 .i32) :
    out0_2 x0 x1 = colSumV (contribSumV x1 (vall (vinit x0 x1))) := by
  unfold out0_2 vall
  rw [View.canon_unit_zero hz]
  simp only [View.ld_unit_zero (S := S4096x128) hz]
  rw [pay5_eq x0, pay6_eq x0, pay7_eq, pay9_eq x0, pay10_eq x0, pay11_eq x0, pay12_eq]
  rw [pay19_eq, pay20_eq, pay21_eq, pay22_eq, pay23_eq]
  rw [pay28_eq, pay29_eq, pay30_eq, pay31_eq, pay32_eq, pay33_eq]
  rw [pay38_eq, pay39_eq, pay40_eq, pay42_eq, pay43_eq, pay44_eq, pay45_eq]
  rw [pay52_eq, pay53_eq, pay54_eq, pay55_eq]
  rw [pay62_eq, pay1_eq]

/-- The second output block is the column sums of the rows' contributions to the count. -/
theorem out0_3_eq (x0 : Vec F S4096x128 .f32) (x1 : Vec F S4096x128 .i32) :
    out0_3 x0 x1 = colSumV (contribCntV x1 (vall (vinit x0 x1))) := by
  unfold out0_3 vall
  rw [View.canon_unit_zero hz]
  simp only [View.ld_unit_zero (S := S4096x128) hz]
  rw [pay5_eq x0, pay6_eq x0, pay7_eq, pay9_eq x0, pay10_eq x0, pay11_eq x0]
  rw [pay20_eq, pay21_eq, pay22_eq]
  rw [pay29_eq, pay30_eq, pay31_eq, pay33_eq]
  rw [pay39_eq, pay40_eq, pay43_eq, pay44_eq, pay45_eq]
  rw [pay53_eq, pay54_eq, pay55_eq]
  rw [pay61_eq, pay2_eq]

end Cert.KernelIdeal.KernelCol

end
-- ==== Proof.KernelIdx.lean ====
/-
  The vector scan, column by column.  Reading the vectors of KernelVec.lean at row `t` of one column `c` of the block:
  a rotation reads the row so many places earlier (cyclically), the row-number comparisons are comparisons of numbers,
  the one-bit and flag words are Booleans; so the start is the specification's `scanInit` on the column's sign and
  prediction functions, ONE vector step is the specification's `scanStep`, hence the twelve steps are `scanAll`, and the
  finishing operations give `scanTerm` / `scanOne` at every row; the column sum is the sum over the 4096 rows.
  The wrapped last row never matters: at row 4095 the pair is not kept, and its value is a product with zero.
-/
import proofs.«140218_j35270271434984_2_alg».proof.Proof.KernelVec
import proofs.«140218_j35270271434984_2_alg».proof.Proof.Spec
import Idealize.ShloMosaic.Lib.ValueIdx
import Idealize.ShloMosaic.Lib.ValueLayout
import Idealize.ShloMosaic.Lib.KernelVsHost
import Idealize.ShloMosaic.Lib.IdealHost
import Idealize.ShloMosaic.Lib.Pipeline.Value
import Idealize.ShloMosaic.PureOps.Ideal.Laws

noncomputable section

namespace Cert.KernelIdeal.KernelCol

open Cert.KernelIdeal Cert.KernelIdeal.Gen Cert.RunSpec Idealize.ShloMosaic Idealize.ShloMosaic.ValueIdx

/-! ## Words -/

/-- A Boolean as a 32-bit flag word: one or zero. -/
def flagW (b : Bool) : BitVec 32 := (BitVec.ofBool b).setWidth 32

theorem ofBool_and (a b : Bool) : IntOp.andi (BitVec.ofBool a) (BitVec.ofBool b) = BitVec.ofBool (a && b) := by
  cases a <;> cases b <;> rfl
theorem ofBool_xor_one (a : Bool) : IntOp.xori (BitVec.ofBool a) 1#1 = BitVec.ofBool (!a) := by
  cases a <;> rfl
theorem select_ofBool {α : Type} (b : Bool) (A B : α) : Scalar.select (BitVec.ofBool b) A B = if b = true then A else B := by
  cases b <;> rfl
theorem sgt_flagW (b : Bool) : IntOp.cmpi .sgt (flagW b) 0#32 = BitVec.ofBool b := by
  cases b <;> rfl
theorem maxsi_flagW (a b : Bool) : IntOp.maxsi (flagW a) (flagW b) = flagW (a || b) := by
  cases a <;> cases b <;> rfl
theorem sitofp_flagW (b : Bool) : (FloatOps.sitofp (F := Ideal) .f32 (flagW b) : EReal) = if b = true then 1 else 0 := by
  cases b
  · show (((flagW false).toInt : ℝ) : EReal) = _
    have : (flagW false).toInt = 0 := by decide
    rw [this]; simp
  · show (((flagW true).toInt : ℝ) : EReal) = _
    have : (flagW true).toInt = 1 := by decide
    rw [this]; simp

theorem toNat_small {d : ℕ} (hd : d < 4096) : (BitVec.ofNat 32 d).toNat = d := by
  rw [BitVec.toNat_ofNat]; exact Nat.mod_eq_of_lt (by omega)

theorem toInt_small {d : ℕ} (hd : d < 4096) : (BitVec.ofNat 32 d).toInt = (d : ℤ) := by
  rw [BitVec.toInt_eq_toNat_of_lt (by rw [toNat_small hd]; omega), toNat_small hd]

/-- Signed "at least" on two small words is "at least" on the numbers. -/
theorem sge_small {a b : ℕ} (ha : a < 4096) (hb : b < 4096) :
    IntOp.cmpi .sge (BitVec.ofNat 32 a) (BitVec.ofNat 32 b) = BitVec.ofBool (decide (b ≤ a)) := by
  show BitVec.ofBool ((BitVec.ofNat 32 b).sle (BitVec.ofNat 32 a)) = _
  congr 1
  rw [BitVec.sle_eq_decide, toInt_small ha, toInt_small hb]
  simp

/-- Equality of two small words is equality of the numbers. -/
theorem eq_small {a b : ℕ} (ha : a < 4096) (hb : b < 4096) :
    IntOp.cmpi .eq (BitVec.ofNat 32 a) (BitVec.ofNat 32 b) = BitVec.ofBool (decide (a = b)) := by
  show BitVec.ofBool (BitVec.ofNat 32 a == BitVec.ofNat 32 b) = _
  congr 1
  by_cases h : a = b
  · subst h; simp
  · have : BitVec.ofNat 32 a ≠ BitVec.ofNat 32 b := fun e => h (by
      have := congrArg BitVec.toNat e; rwa [toNat_small ha, toNat_small hb] at this)
    simp [h, this]

theorem half_f32 : Ideal.ofBits .f32 0x3F000000#32 = (((1 : ℝ) / 2 : ℝ) : EReal) := by
  simp [Ideal.ofBits, Ideal.ieee, -EReal.coe_mul]; norm_num

/-! ## The vectors at a row of a column -/

/-- The row-number vector reads the row number. -/
theorem rowV_apply (t : Fin 4096) (c : Fin 128) : rowV (ix2 t c) = BitVec.ofNat 32 t.val := by
  show BitVec.ofNat 32 (0 * 4096 + t.val) = _
  rw [Nat.zero_mul, Nat.zero_add]

/-- A rotation by `d` along the rows reads the row `d` places earlier, cyclically. -/
theorem rot_apply {α : Type} (d : ℕ) (hd : d < 4096) (v : S4096x128.Idx → α) (t : Fin 4096) (c : Fin 128) :
    dynamicRotate 0 (BitVec.ofNat 32 d) none v rotates_S4096x128_d0 (ix2 t c)
      = v (ix2 (⟨(t.val + 4096 - d) % 4096, Nat.mod_lt _ (by norm_num)⟩ : Fin 4096) c) :=
  dynamicRotate_apply (0 : Fin S4096x128.rank) _ v _ _ _ (by
    intro b
    match b with
    | ⟨0, h0⟩ =>
      have e : (⟨0, h0⟩ : Fin S4096x128.rank) = 0 := rfl
      rw [if_pos e]
      show (t.val + 4096 - d) % 4096 = (t.val + 4096 - (BitVec.ofNat 32 d).toNat % 4096) % 4096
      rw [toNat_small hd, Nat.mod_eq_of_lt hd]
    | ⟨1, h1⟩ =>
      have e : ¬ (⟨1, h1⟩ : Fin S4096x128.rank) = 0 := fun h => Nat.one_ne_zero (congrArg Fin.val h)
      rw [if_neg e])

/-- The vector `d` rows earlier reads the row `d` places earlier, the filler on the first `d` rows. -/
theorem shiftV_apply {α : Type} (d : ℕ) (hd : d < 4096) (v : S4096x128.Idx → α) (z : α) (t : Fin 4096) (c : Fin 128) :
    shiftV d v z (ix2 t c) = if h : d ≤ t.val then v (ix2 (⟨t.val - d, by omega⟩ : Fin 4096) c) else z := by
  show Scalar.select (IntOp.cmpi .sge (rowV (ix2 t c)) (BitVec.ofNat 32 d))
      (dynamicRotate 0 (BitVec.ofNat 32 d) none v rotates_S4096x128_d0 (ix2 t c)) z = _
  rw [rowV_apply, sge_small t.isLt hd, select_ofBool, rot_apply d hd]
  by_cases h : d ≤ t.val
  · rw [dif_pos h, if_pos (decide_eq_true h)]
    refine congrArg v (congrArg (fun a => ix2 a c) (Fin.ext ?_))
    show (t.val + 4096 - d) % 4096 = t.val - d
    have := t.isLt
    omega
  · rw [dif_neg h, if_neg (by simpa using h)]

/-- The vector state at column `c` is the specification's state: sums and counts equal, the flag word the flag. -/
structure Rel (v : VSt Ideal) (c : Fin 128) (s : ScanSt) : Prop where
  x : ∀ t : Fin 4096, v.x (ix2 t c) = s.x t.val
  w : ∀ t : Fin 4096, v.w (ix2 t c) = s.w t.val
  f : ∀ t : Fin 4096, v.f (ix2 t c) = flagW (s.f t.val)

/-- A shifted float vector reads the specification's shifted function. -/
theorem shiftE_of (d : ℕ) (hd : d < 4096) (X : FVec Ideal S4096x128 .f32) (c : Fin 128) (g : ℕ → EReal)
    (h : ∀ t : Fin 4096, X (ix2 t c) = g t.val) (t : Fin 4096) :
    shiftV d X (z0 (F := Ideal)) (ix2 t c) = shiftE d g t.val := by
  rw [shiftV_apply d hd]
  unfold shiftE
  by_cases hdt : d ≤ t.val
  · rw [dif_pos hdt, if_pos hdt, h]
  · rw [dif_neg hdt, if_neg hdt]; exact Ideal.ofBits_zero_f32

/-- A shifted flag vector reads the specification's shifted flag. -/
theorem shiftB_of (d : ℕ) (hd : d < 4096) (Fl : IVec S4096x128 32) (c : Fin 128) (g : ℕ → Bool)
    (h : ∀ t : Fin 4096, Fl (ix2 t c) = flagW (g t.val)) (t : Fin 4096) :
    shiftV d Fl 0#32 (ix2 t c) = flagW (shiftB d g t.val) := by
  rw [shiftV_apply d hd]
  unfold shiftB
  by_cases hdt : d ≤ t.val
  · rw [dif_pos hdt, if_pos hdt, h]
  · rw [dif_neg hdt, if_neg hdt]; rfl

/-- ONE vector step is the specification's step. -/
theorem Rel.step {v : VSt Ideal} {c : Fin 128} {s : ScanSt} (d : ℕ) (hd : d < 4096) (h : Rel v c s) :
    Rel (vstep d v) c (scanStep d s) where
  x t := by
    show Scalar.select (IntOp.cmpi .sgt (v.f (ix2 t c)) 0#32) (v.x (ix2 t c))
      (v.x (ix2 t c) + shiftV d v.x (z0 (F := Ideal)) (ix2 t c)) = _
    rw [h.f, sgt_flagW, select_ofBool, h.x, shiftE_of d hd v.x c s.x h.x]
    rfl
  w t := by
    show Scalar.select (IntOp.cmpi .sgt (v.f (ix2 t c)) 0#32) (v.w (ix2 t c))
      (v.w (ix2 t c) + shiftV d v.w (z0 (F := Ideal)) (ix2 t c)) = _
    rw [h.f, sgt_flagW, select_ofBool, h.w, shiftE_of d hd v.w c s.w h.w]
    rfl
  f t := by
    show IntOp.maxsi (v.f (ix2 t c)) (shiftV d v.f 0#32 (ix2 t c)) = _
    rw [h.f, shiftB_of d hd v.f c s.f h.f, maxsi_flagW]
    rfl

/-- The twelve vector steps are the specification's twelve. -/
theorem Rel.all {v : VSt Ideal} {c : Fin 128} {s : ScanSt} (h : Rel v c s) : Rel (vall v) c (scanAll s) :=
  ((((((((((((h.step 1 (by norm_num)).step 2 (by norm_num)).step 4 (by norm_num)).step 8 (by norm_num)).step 16
    (by norm_num)).step 32 (by norm_num)).step 64 (by norm_num)).step 128 (by norm_num)).step 256 (by norm_num)).step 512
    (by norm_num)).step 1024 (by norm_num)).step 2048 (by norm_num))

/-! ## The start and the finish at a row of a column -/

/-- "Not the last row" reads so. -/
theorem notLastV_apply (t : Fin 4096) (c : Fin 128) : notLastV (ix2 t c) = BitVec.ofBool (decide (t.val ≠ 4095)) := by
  show IntOp.xori (IntOp.cmpi .eq (rowV (ix2 t c)) 4095#32) 1#1 = _
  rw [rowV_apply, eq_small t.isLt (by norm_num), ofBool_xor_one]
  congr 1
  simp

/-- The row after `t`, cyclically, is `t + 1` below the last row. -/
theorem next_row {t : ℕ} (h : t < 4095) : (t + 4096 - 4095) % 4096 = t + 1 := by omega

/-- No pair is kept at the last row. -/
theorem bcolF_last (sf : ℕ → ℕ → BitVec 32) (r : ℕ) : bcolF sf r 4095 = false := by simp [bcolF]

/-- Below the last row a pair is kept when the two signs agree. -/
theorem bcolF_lt (sf : ℕ → ℕ → BitVec 32) (r : ℕ) {t : ℕ} (h : t < 4095) :
    bcolF sf r t = decide (sf (t + 1) r = sf t r) := by simp [bcolF, h]

section Column
variable (x0 : Vec Ideal S4096x128 .f32) (x1 : Vec Ideal S4096x128 .i32) (pf : ℕ → ℕ → EReal) (sf : ℕ → ℕ → BitVec 32)
  (r : ℕ) (c : Fin 128)

/-- The "kept" bit is the column's `bcolF`. -/
theorem sameV_apply (hs : ∀ t : Fin 4096, x1 (ix2 t c) = sf t.val r) (t : Fin 4096) :
    sameV x1 (ix2 t c) = BitVec.ofBool (bcolF sf r t.val) := by
  show IntOp.andi (IntOp.cmpi .eq (shapeCast S4096x128 x1 shapeCasts_S4096x128_S4096x128 (ix2 t c))
      (dynamicRotate 0 4095#32 none (shapeCast S4096x128 x1 shapeCasts_S4096x128_S4096x128) rotates_S4096x128_d0 (ix2 t c)))
    (notLastV (ix2 t c)) = _
  rw [shapeCast_self, rot_apply 4095 (by norm_num), notLastV_apply, hs, hs]
  show IntOp.andi (BitVec.ofBool (sf t.val r == sf ((t.val + 4096 - 4095) % 4096) r)) _ = _
  rw [ofBool_and]
  congr 1
  by_cases ht : t.val = 4095
  · rw [ht, bcolF_last]; simp
  · have h2 : t.val < 4095 := by have := t.isLt; omega
    rw [next_row h2, bcolF_lt sf r h2]
    by_cases e : sf (t.val + 1) r = sf t.val r
    · simp [ht, e]
    · have e' : ¬ sf t.val r = sf (t.val + 1) r := fun h => e h.symm
      simp [ht, e, e']

/-- The weight is one on a kept pair, zero otherwise. -/
theorem wV_apply (hs : ∀ t : Fin 4096, x1 (ix2 t c) = sf t.val r) (t : Fin 4096) :
    wV x1 (ix2 t c) = if bcolF sf r t.val = true then 1 else 0 := by
  show FloatOps.sitofp (F := Ideal) .f32 ((sameV x1 (ix2 t c)).setWidth 32) = _
  rw [sameV_apply x1 sf r c hs]
  exact sitofp_flagW _

/-- The boundary flag is set where the pair is not kept. -/
theorem fV_apply (hs : ∀ t : Fin 4096, x1 (ix2 t c) = sf t.val r) (t : Fin 4096) :
    fV x1 (ix2 t c) = flagW (!bcolF sf r t.val) := by
  show (IntOp.xori (sameV x1 (ix2 t c)) 1#1).setWidth 32 = _
  rw [sameV_apply x1 sf r c hs, ofBool_xor_one]
  rfl

/-- The weighted squared increment is the column's `qcolF`. -/
theorem xV_apply (hx : ∀ t : Fin 4096, x0 (ix2 t c) = pf t.val r) (hs : ∀ t : Fin 4096, x1 (ix2 t c) = sf t.val r)
    (t : Fin 4096) : xV x0 x1 (ix2 t c) = qcolF pf sf r t.val := by
  show (dynamicRotate 0 4095#32 none (shapeCast S4096x128 x0 shapeCasts_S4096x128_S4096x128) rotates_S4096x128_d0 (ix2 t c)
        - shapeCast S4096x128 x0 shapeCasts_S4096x128_S4096x128 (ix2 t c))
      * (dynamicRotate 0 4095#32 none (shapeCast S4096x128 x0 shapeCasts_S4096x128_S4096x128) rotates_S4096x128_d0 (ix2 t c)
        - shapeCast S4096x128 x0 shapeCasts_S4096x128_S4096x128 (ix2 t c))
      * wV x1 (ix2 t c) = _
  rw [shapeCast_self, rot_apply 4095 (by norm_num), hx, hx, wV_apply x1 sf r c hs]
  unfold qcolF
  by_cases ht : t.val = 4095
  · rw [ht, bcolF_last, if_neg (by decide), mul_zero, mul_zero]
  · have h2 : t.val < 4095 := by have := t.isLt; omega
    show (pf ((t.val + 4096 - 4095) % 4096) r - pf t.val r) * (pf ((t.val + 4096 - 4095) % 4096) r - pf t.val r) * _ = _
    rw [next_row h2]

/-- The scan's start is the specification's, on the column's functions. -/
theorem rel_init (hx : ∀ t : Fin 4096, x0 (ix2 t c) = pf t.val r) (hs : ∀ t : Fin 4096, x1 (ix2 t c) = sf t.val r) :
    Rel (vinit x0 x1) c (scanInit (bcolF sf r) (qcolF pf sf r)) where
  x t := xV_apply x0 x1 pf sf r c hx hs t
  w t := wV_apply x1 sf r c hs t
  f t := fV_apply x1 sf r c hs t

/-- "The next row's flag is set, and this is not the last row": the next pair is a boundary, below the last row. -/
theorem isEndV_apply (hs : ∀ t : Fin 4096, x1 (ix2 t c) = sf t.val r) (t : Fin 4096) :
    isEndV x1 (ix2 t c) = BitVec.ofBool (decide (bcolF sf r (t.val + 1) = false ∧ t.val ≠ 4095)) := by
  show IntOp.andi (IntOp.cmpi .sgt (dynamicRotate 0 4095#32 none (fV x1) rotates_S4096x128_d0 (ix2 t c)) 0#32)
    (notLastV (ix2 t c)) = _
  rw [rot_apply 4095 (by norm_num), fV_apply x1 sf r c hs, sgt_flagW, notLastV_apply, ofBool_and]
  refine congrArg BitVec.ofBool ?_
  by_cases ht : t.val = 4095
  · simp [ht]
  · have h2 : t.val < 4095 := by have := t.isLt; omega
    show (!bcolF sf r ((t.val + 4096 - 4095) % 4096) && decide (t.val ≠ 4095)) = _
    rw [next_row h2]
    simp [ht]

/-- "The running count is positive" compares it with one half. -/
theorem validV_apply {v : VSt Ideal} {s : ScanSt} (h : Rel v c s) (t : Fin 4096) :
    validV v (ix2 t c) = BitVec.ofBool (decide ((((1 : ℝ) / 2 : ℝ) : EReal) < s.w t.val)) := by
  show BitVec.ofBool (decide (Ideal.ofBits .f32 0x3F000000#32 < v.w (ix2 t c))) = _
  rw [h.w, half_f32]

/-- The row contributes exactly when the specification says so. -/
theorem keepV_apply (hs : ∀ t : Fin 4096, x1 (ix2 t c) = sf t.val r) {v : VSt Ideal}
    (h : Rel v c (scanAll (scanInit (bcolF sf r) (qcolF pf sf r)))) (t : Fin 4096) :
    keepV x1 v (ix2 t c) = BitVec.ofBool (decide (scanKeep (bcolF sf r) (qcolF pf sf r) t.val)) := by
  show IntOp.andi (isEndV x1 (ix2 t c)) (validV v (ix2 t c)) = _
  rw [isEndV_apply x1 sf r c hs, validV_apply c h, ofBool_and]
  congr 1
  unfold scanKeep
  rw [← Bool.decide_and]
  exact decide_eq_decide.mpr ⟨fun ⟨⟨a, b⟩, d⟩ => ⟨a, b, d⟩, fun ⟨a, b, d⟩ => ⟨⟨a, b⟩, d⟩⟩

/-- What row `t` adds to the column's sum is the specification's `scanTerm`. -/
theorem contribSumV_apply (hs : ∀ t : Fin 4096, x1 (ix2 t c) = sf t.val r) {v : VSt Ideal}
    (h : Rel v c (scanAll (scanInit (bcolF sf r) (qcolF pf sf r)))) (t : Fin 4096) :
    contribSumV x1 v (ix2 t c) = scanTerm (bcolF sf r) (qcolF pf sf r) t.val := by
  show Scalar.select (keepV x1 v (ix2 t c))
    (Scalar.select (validV v (ix2 t c)) (Ideal.div (v.x (ix2 t c)) (max (v.w (ix2 t c)) (Ideal.ofBits .f32 0x3F800000#32)))
      (Ideal.ofBits .f32 0x00000000#32)) (Ideal.ofBits .f32 0x00000000#32) = _
  rw [keepV_apply x1 pf sf r c hs h, validV_apply c h, select_ofBool, select_ofBool, h.x, h.w, Ideal.ofBits_one_f32,
    Ideal.ofBits_zero_f32]
  unfold scanTerm
  by_cases hk : scanKeep (bcolF sf r) (qcolF pf sf r) t.val
  · rw [if_pos (decide_eq_true hk), if_pos hk, if_pos (decide_eq_true hk.2.2)]
  · rw [if_neg (by simpa using hk), if_neg hk]

/-- What row `t` adds to the column's count is the specification's `scanOne`. -/
theorem contribCntV_apply (hs : ∀ t : Fin 4096, x1 (ix2 t c) = sf t.val r) {v : VSt Ideal}
    (h : Rel v c (scanAll (scanInit (bcolF sf r) (qcolF pf sf r)))) (t : Fin 4096) :
    contribCntV x1 v (ix2 t c) = scanOne (bcolF sf r) (qcolF pf sf r) t.val := by
  show Scalar.select (keepV x1 v (ix2 t c)) (Ideal.ofBits .f32 0x3F800000#32) (Ideal.ofBits .f32 0x00000000#32) = _
  rw [keepV_apply x1 pf sf r c hs h, select_ofBool, Ideal.ofBits_one_f32, Ideal.ofBits_zero_f32]
  unfold scanOne
  by_cases hk : scanKeep (bcolF sf r) (qcolF pf sf r) t.val
  · rw [if_pos (decide_eq_true hk), if_pos hk]
  · rw [if_neg (by simpa using hk), if_neg hk]

end Column

/-! ## The column sums -/

/-- The column sums of a [4096, 128] vector, read at column `c` of the [1, 128] block: the sum over the 4096 rows. -/
theorem colSumV_apply (v : FVec Ideal S4096x128 .f32) (c : Fin 128) :
    colSumV v (ix2 (0 : Fin 1) c) = ∑ k : Fin 4096, v (ix2 k c) := by
  unfold colSumV
  rw [shapeCast_a_1a_apply]
  refine (Ideal.multiReduction_add_single v 0x00000000#32 reduces_S4096x128_S128 (.inl rfl) rfl (ix1 c)).trans ?_
  refine Finset.sum_congr rfl (fun k _ => congrArg v ?_)
  funext a
  match a with
  | ⟨0, _⟩ => rfl
  | ⟨1, _⟩ => rfl

/-- THE COLUMN: the scan's start, twelve steps and finish, summed over the rows, on the column's functions. -/
theorem col_sum (x0 : Vec Ideal S4096x128 .f32) (x1 : Vec Ideal S4096x128 .i32) (pf : ℕ → ℕ → EReal)
    (sf : ℕ → ℕ → BitVec 32) (r : ℕ) (c : Fin 128) (hx : ∀ t : Fin 4096, x0 (ix2 t c) = pf t.val r)
    (hs : ∀ t : Fin 4096, x1 (ix2 t c) = sf t.val r) :
    colSumV (contribSumV x1 (vall (vinit x0 x1))) (ix2 (0 : Fin 1) c)
      = ∑ t ∈ Finset.range 4096, scanTerm (bcolF sf r) (qcolF pf sf r) t := by
  rw [colSumV_apply, ← Fin.sum_univ_eq_sum_range (fun t => scanTerm (bcolF sf r) (qcolF pf sf r) t) 4096]
  exact Finset.sum_congr rfl fun t _ => contribSumV_apply x1 pf sf r c hs (rel_init x0 x1 pf sf r c hx hs).all t

theorem col_cnt (x0 : Vec Ideal S4096x128 .f32) (x1 : Vec Ideal S4096x128 .i32) (pf : ℕ → ℕ → EReal)
    (sf : ℕ → ℕ → BitVec 32) (r : ℕ) (c : Fin 128) (hx : ∀ t : Fin 4096, x0 (ix2 t c) = pf t.val r)
    (hs : ∀ t : Fin 4096, x1 (ix2 t c) = sf t.val r) :
    colSumV (contribCntV x1 (vall (vinit x0 x1))) (ix2 (0 : Fin 1) c)
      = ∑ t ∈ Finset.range 4096, scanOne (bcolF sf r) (qcolF pf sf r) t := by
  rw [colSumV_apply, ← Fin.sum_univ_eq_sum_range (fun t => scanOne (bcolF sf r) (qcolF pf sf r) t) 4096]
  exact Finset.sum_congr rfl fun t _ => contribCntV_apply x1 pf sf r c hs (rel_init x0 x1 pf sf r c hx hs).all t

end Cert.KernelIdeal.KernelCol

end
-- ==== Proof.KernelCol.lean ====
/-
  The kernel body's value, column by column: each of the two [1, 128] output blocks the body leaves holds, at column
  `c`, the sum over the 4096 rows of what the doubling scan's finish adds at that row — the specification's `scanTerm`
  (for the sum) and `scanOne` (for the count) on the column's sign and prediction functions.  KernelStage.lean reads the
  printed body as the vector scan; KernelIdx.lean reads the vector scan at a row of a column.
-/
import proofs.«140218_j35270271434984_2_alg».proof.Proof.KernelStage
import proofs.«140218_j35270271434984_2_alg».proof.Proof.KernelIdx

noncomputable section

namespace Cert.KernelIdeal.KernelCol

open Cert.KernelIdeal Cert.KernelIdeal.Gen Cert.RunSpec Idealize.ShloMosaic Idealize.ShloMosaic.ValueIdx

/-- Column `c` of the first output block: the sum over the rows of the scan's terms. -/
theorem out_sum (x0 : Vec Ideal S4096x128 .f32) (x1 : Vec Ideal S4096x128 .i32) (pf : ℕ → ℕ → EReal)
    (sf : ℕ → ℕ → BitVec 32) (r : ℕ) (c : Fin 128) (hx : ∀ t : Fin 4096, x0 (ix2 t c) = pf t.val r)
    (hs : ∀ t : Fin 4096, x1 (ix2 t c) = sf t.val r) :
    Gen.out0_2 (F := Ideal) x0 x1 (ix2 (0 : Fin 1) c)
      = ∑ t ∈ Finset.range 4096, scanTerm (bcolF sf r) (qcolF pf sf r) t := by
  rw [out0_2_eq]
  exact col_sum x0 x1 pf sf r c hx hs

/-- Column `c` of the second output block: the number of rows that contribute, as a sum of ones. -/
theorem out_cnt (x0 : Vec Ideal S4096x128 .f32) (x1 : Vec Ideal S4096x128 .i32) (pf : ℕ → ℕ → EReal)
    (sf : ℕ → ℕ → BitVec 32) (r : ℕ) (c : Fin 128) (hx : ∀ t : Fin 4096, x0 (ix2 t c) = pf t.val r)
    (hs : ∀ t : Fin 4096, x1 (ix2 t c) = sf t.val r) :
    Gen.out0_3 (F := Ideal) x0 x1 (ix2 (0 : Fin 1) c)
      = ∑ t ∈ Finset.range 4096, scanOne (bcolF sf r) (qcolF pf sf r) t := by
  rw [out0_3_eq]
  exact col_cnt x0 x1 pf sf r c hx hs

end Cert.KernelIdeal.KernelCol

end
-- ==== Proof.RefSeg.lean ====
/-
  The reference program's per-pair quantities read at one index.

  Column `r` of the [4096, 4096] predictions and signs; pair `t` (0 ≤ t < 4095) joins rows `t` and `t+1`.
  Three readings are proved:
    • the "kept" bit of pair `t` is one exactly when rows `t+1` and `t` of the column carry the same sign;
    • the squared increment of pair `t` is `(p (t+1) r - p t r)²`;
    • the run number of pair `t`, flattened row-major and made distinct across columns, is the number of
      boundaries among pairs `0 … t` of the column plus `4096 · r`.
  The third is the substantial one.  The reference computes the inclusive running count of boundaries with a window
  sum: a window of 4095 rows, padded by 4094 rows above, so that window position `n` of output row `t` reads operand
  row `t + n - 4094` when that is not negative and the neutral value `0` otherwise.  The left fold of 32-bit additions
  over the 4095 positions is the word of the natural-number sum of the summands (addition of words is addition of
  naturals modulo 2³²), and the positions that read a real row are exactly `n = 4094 - t + u` for `u = 0 … t`, so the
  sum is `∑ u ≤ t, [pair u of the column is a boundary]`, the cardinality that defines the run number.
-/
import proofs.«140218_j35270271434984_2_alg».proof.Proof.Gen.ReferenceIdeal
import proofs.«140218_j35270271434984_2_alg».proof.Proof.RefTerm
import proofs.«140218_j35270271434984_2_alg».proof.Proof.Spec
import Idealize.ShloMosaic.Lib.ValueIdx
import Idealize.ShloMosaic.Lib.Pipeline.Value
import Idealize.ShloMosaic.Lib.ValueLayout
import Idealize.ShloMosaic.Lib.IdealHost

noncomputable section

namespace Cert.ReferenceIdeal.RefSeg

open Cert.RunSpec Idealize.ShloMosaic Idealize.ShloMosaic.ValueIdx Cert.ReferenceIdeal Finset

/-! ## Words and sums -/

/-- A left fold of word additions of the words of naturals is the word of the naturals' sum. -/
theorem foldl_add_ofNat {ι : Type} (c : ι → ℕ) (l : List ι) (a : ℕ) :
    l.foldl (fun acc n => acc + BitVec.ofNat 32 (c n)) (BitVec.ofNat 32 a)
      = BitVec.ofNat 32 (a + (l.map c).sum) := by
  induction l generalizing a with
  | nil => simp
  | cons x xs ih =>
    rw [List.foldl_cons, ← BitVec.ofNat_add, ih, List.map_cons, List.sum_cons, Nat.add_assoc]

/-- The fold over all positions below `N`, from zero, when every summand is the word of a natural. -/
theorem foldl_finRange_add (N : ℕ) (G : Fin N → BitVec 32) (c : ℕ → ℕ)
    (hG : ∀ n, G n = BitVec.ofNat 32 (c n.val)) :
    (List.finRange N).foldl (fun acc n => acc + G n) 0#32 = BitVec.ofNat 32 (∑ n ∈ range N, c n) := by
  have h0 : (fun (acc : BitVec 32) (n : Fin N) => acc + G n)
      = fun acc n => acc + BitVec.ofNat 32 (c n.val) := by
    funext acc n; rw [hG]
  have h1 := foldl_add_ofNat (fun n : Fin N => c n.val) (List.finRange N) 0
  rw [Nat.zero_add] at h1
  rw [h0, show (0#32) = BitVec.ofNat 32 0 from rfl, h1, ← Fin.sum_univ_def, Fin.sum_univ_eq_sum_range]

/-- The window of 4095 positions padded 4094 above: position `n` of output row `t` reads row `t + n - 4094`
    when that is not negative, so the window sums rows `0 … t`. -/
theorem sum_window (t : ℕ) (ht : t < 4095) (d : ℕ → ℕ) :
    ∑ n ∈ range 4095, (if 4094 ≤ t + n then d (t + n - 4094) else 0) = ∑ u ∈ range (t + 1), d u := by
  have hsplit := Finset.sum_range_add_sum_Ico (fun n => if 4094 ≤ t + n then d (t + n - 4094) else 0)
    (show 4094 - t ≤ 4095 by omega)
  rw [← hsplit, Finset.sum_Ico_eq_sum_range]
  have hz : ∑ n ∈ range (4094 - t), (if 4094 ≤ t + n then d (t + n - 4094) else 0) = 0 :=
    Finset.sum_eq_zero fun n hn => by
      have := Finset.mem_range.1 hn
      rw [if_neg (by omega)]
  rw [hz, Nat.zero_add, show 4095 - (4094 - t) = t + 1 by omega]
  refine Finset.sum_congr rfl fun i hi => ?_
  have hi' := Finset.mem_range.1 hi
  rw [if_pos (by omega), show t + (4094 - t + i) - 4094 = i by omega]

/-! ## The two argument arrays with the unit axis dropped -/

variable (a0 : FVec Ideal S4096x4096x1 .f32) (a1 : IVec S4096x4096x1 32)

/-- The signs at row `k`, column `r`. -/
theorem s2_apply (k r : Fin 4096) : RefTerm.s2 a1 (ix2 k r) = Sg a1 k.val r.val := by
  unfold RefTerm.s2 Sg
  rw [dif_pos ⟨k.isLt, r.isLt⟩]
  exact shapeCast_apply a1 _ (ix2 k r) (ix3 k r 0) (by
    rw [Shape.rowMajor_val_three, Shape.rowMajor_val_two]
    show (k.val * 4096 + r.val) * 1 + 0 = k.val * 4096 + r.val
    omega)

/-- The predictions at row `k`, column `r`. -/
theorem p2_apply (k r : Fin 4096) : RefTerm.p2 (F := Ideal) a0 (ix2 k r) = P a0 k.val r.val := by
  unfold RefTerm.p2 P
  rw [dif_pos ⟨k.isLt, r.isLt⟩]
  exact shapeCast_apply a0 _ (ix2 k r) (ix3 k r 0) (by
    rw [Shape.rowMajor_val_three, Shape.rowMajor_val_two]
    show (k.val * 4096 + r.val) * 1 + 0 = k.val * 4096 + r.val
    omega)

/-! ## The kept bit and the squared increment -/

/-- Pair `t` of column `r` is kept exactly when rows `t+1` and `t` carry the same sign. -/
theorem same_apply (t : Fin 4095) (r : Fin 4096) :
    RefTerm.same a1 (ix2 t r) = if bcol a1 r.val t.val = true then 1#1 else 0#1 := by
  have ht := t.isLt
  unfold RefTerm.same
  show IntOp.cmpi .eq (extractStridedSlice S4095x4096 ![1, 0] (RefTerm.s2 a1) _ (ix2 t r))
      (extractStridedSlice S4095x4096 ![0, 0] (RefTerm.s2 a1) _ (ix2 t r)) = _
  rw [slice2_axis0_apply 1 (RefTerm.s2 a1) _ t r ⟨t.val + 1, by omega⟩ (by show t.val + 1 = 1 + t.val; omega),
    slice2_axis0_apply 0 (RefTerm.s2 a1) _ t r ⟨t.val, by omega⟩ (by show t.val = 0 + t.val; omega),
    s2_apply, s2_apply]
  show BitVec.ofBool (Sg a1 (t.val + 1) r.val == Sg a1 t.val r.val) = _
  by_cases h : Sg a1 (t.val + 1) r.val = Sg a1 t.val r.val
  · have hb : (Sg a1 (t.val + 1) r.val == Sg a1 t.val r.val) = true := beq_iff_eq.2 h
    rw [if_pos (by simp [bcolF, h, ht]), hb]; rfl
  · have hb : (Sg a1 (t.val + 1) r.val == Sg a1 t.val r.val) = false := beq_eq_false_iff_ne.2 h
    rw [if_neg (by simp [bcolF, h]), hb]; rfl

/-- The squared increment of pair `t` of column `r`. -/
theorem sq_apply (t : Fin 4095) (r : Fin 4096) :
    RefTerm.sq (F := Ideal) a0 (ix2 t r)
      = (P a0 (t.val + 1) r.val - P a0 t.val r.val) * (P a0 (t.val + 1) r.val - P a0 t.val r.val) := by
  have ht := t.isLt
  have hi : RefTerm.incr (F := Ideal) a0 (ix2 t r) = P a0 (t.val + 1) r.val - P a0 t.val r.val := by
    unfold RefTerm.incr
    rw [subf_apply,
      slice2_axis0_apply 1 (RefTerm.p2 (F := Ideal) a0) _ t r ⟨t.val + 1, by omega⟩
        (by show t.val + 1 = 1 + t.val; omega),
      slice2_axis0_apply 0 (RefTerm.p2 (F := Ideal) a0) _ t r ⟨t.val, by omega⟩
        (by show t.val = 0 + t.val; omega),
      p2_apply, p2_apply]
  unfold RefTerm.sq
  rw [mulf_apply, hi]

/-! ## The boundary word, the column offset, the running count -/

/-- One at a boundary, zero at a kept pair, as a 32-bit word. -/
theorem bnd_apply (u : Fin 4095) (r : Fin 4096) :
    RefTerm.bnd a1 (ix2 u r) = BitVec.ofNat 32 (if bcol a1 r.val u.val = false then 1 else 0) := by
  unfold RefTerm.bnd
  show (~~~(RefTerm.same a1 (ix2 u r))).setWidth 32 = _
  rw [same_apply]
  cases bcol a1 r.val u.val
  · rfl
  · rfl

/-- Column `r`'s offset: `4096 · r` at every pair of the column. -/
theorem colOff_apply (t : Fin 4095) (r : Fin 4096) :
    RefTerm.colOff (ix2 t r) = BitVec.ofNat 32 (4096 * r.val) := by
  unfold RefTerm.colOff
  rw [broadcastInDim_apply _ _ _ (ix2 t r) (ix2 (0 : Fin 1) r) (fun a => by
    match a with
    | ⟨0, _⟩ => rfl
    | ⟨1, _⟩ => rfl)]
  show IntOp.muli (broadcastInDim S1x4096 ![1] _ (iotaInDim S4096 32 0) (ix2 (0 : Fin 1) r))
    (broadcastInDim S1x4096 ![] _ (constantI S_ 32 4096#32) (ix2 (0 : Fin 1) r)) = _
  rw [broadcastInDim_scalar_apply, constantI_apply,
    broadcastInDim_apply _ _ _ (ix2 (0 : Fin 1) r) (ix1 r) (fun a => by
      match a with
      | ⟨0, _⟩ => rfl),
    iotaInDim_apply]
  show BitVec.ofNat 32 r.val * BitVec.ofNat 32 4096 = _
  rw [← BitVec.ofNat_mul, Nat.mul_comm]

/-- The window's shape: 4095 rows of one column. -/
abbrev Wsh : Shape := ⟨2, ![4095, 1]⟩

/-- The window shape [4095, 1] has 4095 positions. -/
theorem numel_window : Wsh.numel = 4095 := by
  simp [Shape.numel, Fin.prod_univ_two]

/-- Position `n` of the window [4095, 1] is row `n`, column `0`. -/
theorem window_coords (n : Fin Wsh.numel) :
    (Wsh.rowMajor.symm n 0).val = n.val ∧ (Wsh.rowMajor.symm n 1).val = 0 := by
  generalize hi : Wsh.rowMajor.symm n = i
  have h1 : (i 1).val < 1 := (i 1).isLt
  have h2 : (Wsh.rowMajor i).val = n.val := by
    rw [← hi, Equiv.apply_symm_apply]
  rw [Shape.rowMajor_val_two] at h2
  have h3 : (i 0).val * 1 + (i 1).val = n.val := h2
  omega

/-- The inclusive running count of boundaries down column `r`, at pair `t`: the run number of the pair. -/
theorem cums_apply (t : Fin 4095) (r : Fin 4096) :
    RefTerm.cums a1 (ix2 t r) = BitVec.ofNat 32 (seg (bcol a1 r.val) t.val) := by
  have ht := t.isLt
  have hr := r.isLt
  unfold RefTerm.cums Host.reduceWindow
  simp only []
  refine (foldl_finRange_add _ _
    (fun n => if 4094 ≤ t.val + n then (if bcol a1 r.val (t.val + n - 4094) = false then 1 else 0) else 0)
    ?_).trans ?_
  · intro n
    have hn : n.val < 4095 := lt_of_lt_of_eq n.isLt numel_window
    obtain ⟨hi0, hi1⟩ := window_coords n
    show dite _ _ _ = BitVec.ofNat 32
      (if 4094 ≤ t.val + n.val then (if bcol a1 r.val (t.val + n.val - 4094) = false then 1 else 0) else 0)
    split
    next hin =>
      have h00 : 4094 ≤ t.val * 1 + (Wsh.rowMajor.symm n 0).val := (hin 0).1
      rw [if_pos (by omega)]
      refine (congrArg (RefTerm.bnd a1)
        (?_ : _ = ix2 (⟨t.val + n.val - 4094, by omega⟩ : Fin 4095) r)).trans (bnd_apply a1 _ r)
      funext a
      match a with
      | ⟨0, _⟩ =>
        exact Fin.ext (by
          show t.val * 1 + (Wsh.rowMajor.symm n 0).val - 4094 = t.val + n.val - 4094
          omega)
      | ⟨1, _⟩ =>
        exact Fin.ext (by
          show r.val * 1 + (Wsh.rowMajor.symm n 1).val - 0 = r.val
          omega)
    next hin =>
      rw [if_neg (fun hc => hin (fun a => by
        match a with
        | ⟨0, _⟩ =>
          show 4094 ≤ t.val * 1 + (Wsh.rowMajor.symm n 0).val
            ∧ t.val * 1 + (Wsh.rowMajor.symm n 0).val - 4094 < 4095
          omega
        | ⟨1, _⟩ =>
          show 0 ≤ r.val * 1 + (Wsh.rowMajor.symm n 1).val
            ∧ r.val * 1 + (Wsh.rowMajor.symm n 1).val - 0 < 4096
          omega))]
      rfl
  · rw [numel_window, sum_window t.val ht (fun u => if bcol a1 r.val u = false then 1 else 0)]
    unfold seg
    rw [Finset.card_filter]

/-! ## The run number, flattened -/

/-- The run number of pair `t` of column `r`, at its row-major position `4096 · t + r` among the 4095 · 4096
    pairs, made distinct across columns by the offset `4096 · r`. -/
theorem segId_apply (t : Fin 4095) (r : Fin 4096) :
    RefTerm.segId a1 (ix1 (⟨t.val * 4096 + r.val, by have := t.isLt; have := r.isLt; omega⟩ : Fin 16773120))
      = BitVec.ofNat 32 (seg (bcol a1 r.val) t.val + 4096 * r.val) := by
  unfold RefTerm.segId
  rw [shapeCast_apply _ _ _ (ix2 t r) (by
    rw [Shape.rowMajor_val_two, Shape.rowMajor_val_one]
    rfl)]
  show RefTerm.cums a1 (ix2 t r) + RefTerm.colOff (ix2 t r) = _
  rw [cums_apply, colOff_apply, ← BitVec.ofNat_add]

end Cert.ReferenceIdeal.RefSeg

end
-- ==== Proof.RefScatter.lean ====
/-
  The reference's accumulating scatter read at one slot.

  The accumulator has 4096 · 4096 slots; slot `k + 4096 · r` belongs to run number `k` of column `r`.  Update
  number `t · 4096 + r` (pair `t` of column `r`, the pairs flattened row-major) carries the start index
  `seg t + 4096 · r`, read signed and not clamped; there is no window axis, so the update lands on exactly that slot.
  Hence the scatter into the all-zero accumulator holds, at slot `i`, the sum of the updates of the pairs `t` of
  column `i / 4096` whose run number is `i % 4096`: a run's sum of squared increments, and a run's number of kept
  pairs.
-/
import proofs.«140218_j35270271434984_2_alg».proof.Proof.Gen.ReferenceIdeal
import proofs.«140218_j35270271434984_2_alg».proof.Proof.RefTerm
import proofs.«140218_j35270271434984_2_alg».proof.Proof.Spec
import Idealize.ShloMosaic.Lib.ValueIdx
import Idealize.ShloMosaic.PureOps.Ideal.Laws
import Idealize.ShloMosaic.Lib.Pipeline.Value

noncomputable section

namespace Cert.ReferenceIdeal.RefScatter

open Finset Idealize.ShloMosaic Cert.ReferenceIdeal Cert.RunSpec Idealize.ShloMosaic.ValueIdx
open Facts₀ Facts

/-! ## Where an update lands -/

/-- The start of update `j` on the operand's one axis is its scatter index, read signed. -/
theorem start_eq (j : S16773120.Idx) (idx : IVec S16773120x1 32) (a : Fin 1) :
    scatter_S16777216_S16773120x1_S16773120_n_0_0_1.start j idx a = (idx (ix2 (j 0) 0)).toInt := by
  obtain rfl : a = 0 := Subsingleton.elim _ _
  unfold ScatterDims.start
  rw [dif_pos (by decide)]
  congr 2
  funext b
  match b with
  | ⟨0, _⟩ => rfl
  | ⟨1, _⟩ => rfl

/-- There is no window axis: the window coordinate is zero. -/
theorem window_eq (j : S16773120.Idx) (a : Fin 1) :
    scatter_S16777216_S16773120x1_S16773120_n_0_0_1.window j a = 0 := by
  obtain rfl : a = 0 := Subsingleton.elim _ _
  unfold ScatterDims.window
  rw [dif_neg (by decide)]

/-- Update `j` lands on slot `i` exactly when its scatter index, read signed, is `i`. -/
theorem resultIdx_iff (j : S16773120.Idx) (idx : IVec S16773120x1 32) (i : S16777216.Idx) :
    scatter_S16777216_S16773120x1_S16773120_n_0_0_1.resultIdx? j idx = some i
      ↔ (idx (ix2 (j 0) 0)).toInt = ((i 0).val : Int) := by
  have hi : (i 0).val < 16777216 := (i 0).isLt
  unfold ScatterDims.resultIdx?
  split_ifs with h
  · rw [Option.some.injEq]
    have h0 := h 0
    rw [start_eq, window_eq] at h0
    constructor
    · intro e
      have := congrArg (fun f => (f 0).val) e
      simp only [start_eq, window_eq] at this
      omega
    · intro e
      funext a
      obtain rfl : a = 0 := Subsingleton.elim _ _
      apply Fin.ext
      simp only [start_eq, window_eq]
      omega
  · constructor
    · intro e; exact absurd e (by simp)
    · intro e
      exfalso; apply h
      intro a
      rw [start_eq, window_eq, e]
      obtain rfl : a = 0 := Subsingleton.elim _ _
      show (0:Int) ≤ ((i 0).val : Int) + ((0:Nat):Int) ∧ ((i 0).val : Int) + ((0:Nat):Int) < ((16777216 : Nat) : Int)
      omega

/-- A number below 2³¹, as a 32-bit word read signed, is itself. -/
theorem toInt_ofNat_small (n : ℕ) (h : n < 2147483648) : (BitVec.ofNat 32 n).toInt = (n : Int) := by
  rw [BitVec.toInt_eq_toNat_cond, BitVec.toNat_ofNat]
  norm_num
  omega

/-- A run number is at most the number of pairs counted. -/
theorem seg_le (b : ℕ → Bool) (t : ℕ) : seg b t ≤ t + 1 := by
  unfold seg
  exact (Finset.card_filter_le _ _).trans (by rw [Finset.card_range])

/-- The accumulator starts at zero. -/
theorem zero16_apply (i : S16777216.Idx) : RefTerm.zero16 (F := Ideal) i = 0 := by
  show Ideal.ofBits .f32 0x00000000#32 = 0
  exact Ideal.ofBits_zero_f32

/-- The index column holds the flat run numbers. -/
theorem idx_apply (a1 : IVec S4096x4096x1 32) (J : Fin 16773120) (u : Fin 1) :
    RefTerm.idx a1 (ix2 J u) = RefTerm.segId a1 (ix1 J) := by
  unfold RefTerm.idx
  exact broadcastInDim_apply _ _ _ _ (ix1 J) (fun a => match a with | ⟨0, _⟩ => rfl)

/-- The row-major flattening of a [4095, 4096] array read at position `t · 4096 + r`. -/
theorem flat_apply {α : Type} (f : S4095x4096.Idx → α) (t : Fin 4095) (r : Fin 4096) (h : t.val * 4096 + r.val < 16773120) :
    shapeCast S16773120 f shapeCasts_S4095x4096_S16773120 (ix1 (⟨t.val * 4096 + r.val, h⟩ : Fin 16773120)) = f (ix2 t r) := by
  refine shapeCast_apply _ _ _ (ix2 t r) ?_
  rw [Shape.rowMajor_val_two, Shape.rowMajor_val_one]
  rfl

/-- The flat update positions as (pair, column). -/
def flatEquiv : Fin 4095 × Fin 4096 ≃ S16773120.Idx where
  toFun p := ix1 (⟨p.1.val * 4096 + p.2.val, by have := p.1.isLt; have := p.2.isLt; omega⟩ : Fin 16773120)
  invFun j := (⟨(j 0).val / 4096, by have : (j 0).val < 16773120 := (j 0).isLt; omega⟩,
               ⟨(j 0).val % 4096, by omega⟩)
  left_inv p := by
    obtain ⟨t, r⟩ := p
    have := t.isLt; have := r.isLt
    apply Prod.ext <;> apply Fin.ext
    · show (t.val * 4096 + r.val) / 4096 = t.val
      omega
    · show (t.val * 4096 + r.val) % 4096 = r.val
      omega
  right_inv j := by
    funext a
    match a with
    | ⟨0, _⟩ =>
      apply Fin.ext
      show (j 0).val / 4096 * 4096 + (j 0).val % 4096 = (j 0).val
      omega

/-- The accumulating scatter at a slot: the operand plus the sum of the updates landing there. -/
theorem scatterAdd_apply {s si u : Shape} {w : Nat} (d : ScatterDims s si u) (x : FVec Ideal s .f32) (idx : IVec si w)
    (upd : FVec Ideal u .f32) (i : s.Idx) :
    Host.scatterAdd d x idx upd i
      = x i + ∑ j ∈ Finset.univ.filter (fun j => d.resultIdx? j idx = some i), upd j := rfl

/-! ## The scatter at a slot -/

/-- Scattering a [4095, 4096] array `f` (flattened) by run number into the zero accumulator leaves, at slot `i`,
    the sum of `f` over the pairs of column `i / 4096` whose run number is `i % 4096`. -/
theorem scatter_seg (a1 : IVec S4096x4096x1 32)
    (hseg : ∀ (t : Fin 4095) (r : Fin 4096), RefTerm.segId a1 (ix1 (⟨t.val * 4096 + r.val, by omega⟩ : Fin 16773120))
      = BitVec.ofNat 32 (seg (bcol a1 r.val) t.val + 4096 * r.val))
    (f : FVec Ideal S4095x4096 .f32) (G : ℕ → ℕ → EReal)
    (hf : ∀ (t : Fin 4095) (r : Fin 4096), f (ix2 t r) = G r.val t.val)
    (i : S16777216.Idx) :
    Host.scatterAdd scatter_S16777216_S16773120x1_S16773120_n_0_0_1 RefTerm.zero16 (RefTerm.idx a1)
        (shapeCast S16773120 f shapeCasts_S4095x4096_S16773120) i
      = ∑ t ∈ (range 4095).filter (fun t => seg (bcol a1 ((i 0).val / 4096)) t = (i 0).val % 4096),
          G ((i 0).val / 4096) t := by
  have hI : (i 0).val < 16777216 := (i 0).isLt
  refine (scatterAdd_apply _ _ _ _ i).trans ?_
  rw [zero16_apply, zero_add]
  rw [Finset.sum_congr (Finset.filter_congr fun j _ => resultIdx_iff j (RefTerm.idx a1) i) fun _ _ => rfl]
  rw [Finset.sum_filter, ← Equiv.sum_comp flatEquiv, Fintype.sum_prod_type, Finset.sum_comm]
  have key : ∀ (r : Fin 4096) (t : Fin 4095),
      (if (RefTerm.idx a1 (ix2 ((flatEquiv (t, r)) 0) 0)).toInt = ((i 0).val : Int)
        then shapeCast S16773120 f shapeCasts_S4095x4096_S16773120 (flatEquiv (t, r)) else 0)
      = if r.val = (i 0).val / 4096 ∧ seg (bcol a1 r.val) t.val = (i 0).val % 4096 then G r.val t.val else 0 := by
    intro r t
    have ht := t.isLt; have hr := r.isLt
    have hs := seg_le (bcol a1 r.val) t.val
    have e1 : RefTerm.idx a1 (ix2 ((flatEquiv (t, r)) 0) 0)
        = BitVec.ofNat 32 (seg (bcol a1 r.val) t.val + 4096 * r.val) := by
      exact (idx_apply a1 (⟨t.val * 4096 + r.val, by omega⟩ : Fin 16773120) 0).trans (hseg t r)
    have e2 : shapeCast S16773120 f shapeCasts_S4095x4096_S16773120 (flatEquiv (t, r)) = G r.val t.val := by
      rw [← hf]; exact flat_apply f t r _
    rw [e1, e2, toInt_ofNat_small _ (by omega)]
    refine if_congr ?_ rfl rfl
    constructor
    · intro h; constructor <;> omega
    · rintro ⟨h1, h2⟩; omega
  rw [Finset.sum_congr rfl fun r _ => Finset.sum_congr rfl fun t _ => key r t]
  rw [Fin.sum_univ_eq_sum_range (fun r => ∑ t : Fin 4095,
    if r = (i 0).val / 4096 ∧ seg (bcol a1 r) t.val = (i 0).val % 4096 then G r t.val else 0) 4096]
  rw [Finset.sum_eq_single ((i 0).val / 4096)]
  · rw [Fin.sum_univ_eq_sum_range (fun t =>
      if (i 0).val / 4096 = (i 0).val / 4096 ∧ seg (bcol a1 ((i 0).val / 4096)) t = (i 0).val % 4096
        then G ((i 0).val / 4096) t else 0) 4095]
    rw [Finset.sum_filter]
    exact Finset.sum_congr rfl fun t _ => if_congr ⟨fun h => h.2, fun h => ⟨rfl, h⟩⟩ rfl rfl
  · intro r _ hne
    exact Finset.sum_eq_zero fun t _ => if_neg fun h => hne h.1
  · intro h
    exact absurd (Finset.mem_range.2 (by omega)) h

/-- The weight of a pair: one when kept, zero at a boundary. -/
theorem wgt_apply (a1 : IVec S4096x4096x1 32)
    (hsame : ∀ (t : Fin 4095) (r : Fin 4096),
      RefTerm.same a1 (ix2 t r) = if bcol a1 r.val t.val = true then 1#1 else 0#1)
    (t : Fin 4095) (r : Fin 4096) :
    RefTerm.wgt (F := Ideal) a1 (ix2 t r) = if bcol a1 r.val t.val = true then 1 else 0 := by
  show (((RefTerm.same a1 (ix2 t r)).toNat : ℝ) : EReal) = _
  rw [hsame]
  split_ifs <;> simp

/-- Slot `i` of the sums: the sum of squared increments of run `i % 4096` of column `i / 4096`. -/
theorem sums_apply (a0 : FVec Ideal S4096x4096x1 .f32) (a1 : IVec S4096x4096x1 32)
    (hsame : ∀ (t : Fin 4095) (r : Fin 4096),
      RefTerm.same a1 (ix2 t r) = if bcol a1 r.val t.val = true then 1#1 else 0#1)
    (hsq : ∀ (t : Fin 4095) (r : Fin 4096), RefTerm.sq (F := Ideal) a0 (ix2 t r)
      = (P a0 (t.val+1) r.val - P a0 t.val r.val) * (P a0 (t.val+1) r.val - P a0 t.val r.val))
    (hseg : ∀ (t : Fin 4095) (r : Fin 4096), RefTerm.segId a1 (ix1 (⟨t.val * 4096 + r.val, by omega⟩ : Fin 16773120))
      = BitVec.ofNat 32 (seg (bcol a1 r.val) t.val + 4096 * r.val))
    (i : S16777216.Idx) :
    RefTerm.sums (F := Ideal) a0 a1 i
      = segSum (bcol a1 ((i 0).val / 4096)) (qcol a0 a1 ((i 0).val / 4096)) 4095 ((i 0).val % 4096) := by
  unfold RefTerm.sums
  refine (scatter_seg a1 hseg _ (fun r t => qcol a0 a1 r t) ?_ i).trans rfl
  intro t r
  rw [mulf_apply, hsq, wgt_apply a1 hsame]
  rfl

/-- Slot `i` of the counts: the number of kept pairs of run `i % 4096` of column `i / 4096`. -/
theorem cnts_apply (a1 : IVec S4096x4096x1 32)
    (hsame : ∀ (t : Fin 4095) (r : Fin 4096),
      RefTerm.same a1 (ix2 t r) = if bcol a1 r.val t.val = true then 1#1 else 0#1)
    (hseg : ∀ (t : Fin 4095) (r : Fin 4096), RefTerm.segId a1 (ix1 (⟨t.val * 4096 + r.val, by omega⟩ : Fin 16773120))
      = BitVec.ofNat 32 (seg (bcol a1 r.val) t.val + 4096 * r.val))
    (i : S16777216.Idx) :
    RefTerm.cnts (F := Ideal) a1 i
      = ((segCnt (bcol a1 ((i 0).val / 4096)) 4095 ((i 0).val % 4096) : ℕ) : EReal) := by
  unfold RefTerm.cnts
  refine (scatter_seg a1 hseg _ (fun r t => if bcol a1 r t = true then 1 else 0) (wgt_apply a1 hsame) i).trans ?_
  rw [Finset.sum_boole, Finset.filter_filter]
  rfl

end Cert.ReferenceIdeal.RefScatter

end
-- ==== Proof.RefValue.lean ====
/-
  The reference's means and final sums.

  Slot `i` of the 4096 · 4096 accumulators belongs to run number `i % 4096` of column `i / 4096`; it holds the run's
  sum of squared increments and its number of kept pairs.  A slot is valid when that number is positive; its mean is
  the quotient there and zero elsewhere.  Summing the means over all slots, grouped by column, is the sum over the
  columns of each column's sum of run means; counting the valid slots (a sum of 32-bit ones that cannot overflow,
  there being at most 2²⁴ of them) is the sum over the columns of each column's number of non-empty runs.
-/
import proofs.«140218_j35270271434984_2_alg».proof.Proof.RefScatter
import Idealize.ShloMosaic.Lib.IdealHost
import Idealize.ShloMosaic.PureOps.Reduce

noncomputable section

namespace Cert.ReferenceIdeal.RefValue

open Finset Idealize.ShloMosaic Cert.ReferenceIdeal Cert.RunSpec Idealize.ShloMosaic.ValueIdx
open Facts₀ Facts

/-! ## Sums over the slots, grouped by column -/

/-- A sum over `0 … m·N − 1` of a function of quotient and remainder by `N` is the double sum. -/
theorem sum_range_mul {M : Type*} [AddCommMonoid M] (N : ℕ) (hN : 0 < N) (f : ℕ → ℕ → M) (m : ℕ) :
    ∑ n ∈ range (m * N), f (n / N) (n % N) = ∑ r ∈ range m, ∑ k ∈ range N, f r k := by
  induction m with
  | zero => simp
  | succ m ih =>
    rw [Nat.succ_mul, Finset.sum_range_add, ih, Finset.sum_range_succ]
    congr 1
    refine Finset.sum_congr rfl fun k hk => ?_
    have hk' := Finset.mem_range.1 hk
    have e1 : (m * N + k) / N = m := by
      rw [Nat.add_comm, Nat.add_mul_div_right _ _ hN, Nat.div_eq_of_lt hk', Nat.zero_add]
    have e2 : (m * N + k) % N = k := by
      rw [Nat.add_comm, Nat.add_mul_mod_self_right, Nat.mod_eq_of_lt hk']
    rw [e1, e2]

/-- A slot index is its one coordinate. -/
def slotEquiv : Fin 16777216 ≃ S16777216.Idx where
  toFun := ix1
  invFun j := j 0
  left_inv _ := rfl
  right_inv j := (eq_ix1 j).symm

/-- A sum over the slots of a function of (column, run number) is the sum over columns and run numbers. -/
theorem sum_slots {M : Type*} [AddCommMonoid M] (f : ℕ → ℕ → M) :
    ∑ i : S16777216.Idx, f ((i 0).val / 4096) ((i 0).val % 4096) = ∑ r ∈ range 4096, ∑ k ∈ range 4096, f r k := by
  have h1 : ∑ i : S16777216.Idx, f ((i 0).val / 4096) ((i 0).val % 4096)
      = ∑ a : Fin 16777216, f (a.val / 4096) (a.val % 4096) :=
    (Equiv.sum_comp slotEquiv (fun i => f ((i 0).val / 4096) ((i 0).val % 4096))).symm
  rw [h1, Fin.sum_univ_eq_sum_range (fun n => f (n / 4096) (n % 4096)) 16777216]
  exact sum_range_mul 4096 (by norm_num) f 4096

/-- A natural number is positive as an extended real exactly when it is positive. -/
theorem natCast_pos (c : ℕ) : (0 : EReal) < (c : EReal) ↔ 0 < c := by
  rw [← EReal.coe_natCast, EReal.coe_pos, Nat.cast_pos]

/-- `x` where the flag is set, the scalar elsewhere, at a slot. -/
theorem whereV_apply (c : IVec S16777216 1) (x : FVec Ideal S16777216 .f32) (y : FVec Ideal S_ .f32) (i : S16777216.Idx) :
    RefTerm.whereV c x y i = if c i = 1#1 then x i else y ix0 := by
  unfold RefTerm.whereV
  rw [select_apply, broadcastInDim_scalar_apply]
  rfl

/-! ## Counting by a sum of 32-bit ones -/

/-- Adding up words that are each one or zero gives the number of ones, as a word. -/
theorem fold_count {ι : Type*} [DecidableEq ι] (S : Finset ι) (p : ι → Prop) [DecidablePred p] (x : ι → BitVec 32)
    (hx : ∀ i, x i = if p i then 1#32 else 0#32) :
    S.fold IntOp.addi 0#32 x = BitVec.ofNat 32 (S.filter p).card := by
  induction S using Finset.induction_on with
  | empty => rfl
  | insert a S ha ih =>
    rw [Finset.fold_insert ha, ih, hx a, Finset.filter_insert]
    by_cases h : p a
    · rw [if_pos h, if_pos h, Finset.card_insert_of_notMem (fun h' => ha (Finset.mem_of_mem_filter _ h')),
        Nat.add_comm, BitVec.ofNat_add]
      rfl
    · rw [if_neg h, if_neg h]
      show 0#32 + _ = _
      rw [BitVec.zero_add]

/-- A 32-bit integer converted to a float, exactly: the integer read signed. -/
theorem sitofp_ideal (b : BitVec 32) : FloatOps.sitofp (F := Ideal) .f32 b = ((b.toInt : ℝ) : EReal) := rfl

/-- A column has at most `n + 1` non-empty runs. -/
theorem colCnt_le (b : ℕ → Bool) (n : ℕ) : colCnt b n ≤ n + 1 := by
  unfold colCnt
  exact (Finset.card_filter_le _ _).trans (by rw [Finset.card_range])

/-- There are at most 2²⁴ non-empty runs. -/
theorem totalCnt_le (a1 : IVec S4096x4096x1 32) : totalCnt a1 ≤ 16777216 := by
  unfold totalCnt
  refine (Finset.sum_le_card_nsmul _ _ 4096 fun r _ => colCnt_le _ 4095).trans ?_
  rw [Finset.card_range]
  norm_num

/-- The number of non-empty runs as a double sum of ones. -/
theorem totalCnt_eq (a1 : IVec S4096x4096x1 32) :
    totalCnt a1 = ∑ r ∈ range 4096, ∑ k ∈ range 4096, if 0 < segCnt (bcol a1 r) 4095 k then 1 else 0 := by
  unfold totalCnt colCnt
  exact Finset.sum_congr rfl fun r _ => Finset.card_filter _ _

/-! ## The slots' flags and means -/

/-- A slot is valid exactly when its run has a kept pair. -/
theorem valid_apply (a1 : IVec S4096x4096x1 32)
    (hsame : ∀ (t : Fin 4095) (r : Fin 4096),
      RefTerm.same a1 (ix2 t r) = if bcol a1 r.val t.val = true then 1#1 else 0#1)
    (hseg : ∀ (t : Fin 4095) (r : Fin 4096), RefTerm.segId a1 (ix1 (⟨t.val * 4096 + r.val, by omega⟩ : Fin 16773120))
      = BitVec.ofNat 32 (seg (bcol a1 r.val) t.val + 4096 * r.val))
    (i : S16777216.Idx) :
    RefTerm.valid (F := Ideal) a1 i
      = if 0 < segCnt (bcol a1 ((i 0).val / 4096)) 4095 ((i 0).val % 4096) then 1#1 else 0#1 := by
  unfold RefTerm.valid
  rw [cmpf_apply, Ideal.cmpf_def, RefScatter.cnts_apply a1 hsame hseg, RefScatter.zero16_apply]
  show BitVec.ofBool (decide ((0 : EReal) < _)) = _
  by_cases h : 0 < segCnt (bcol a1 ((i 0).val / 4096)) 4095 ((i 0).val % 4096)
  · rw [if_pos h, decide_eq_true ((natCast_pos _).2 h)]; rfl
  · rw [if_neg h, decide_eq_false (fun h' => h ((natCast_pos _).1 h'))]; rfl

/-- Slot `i` of the means: the mean of run `i % 4096` of column `i / 4096`, zero for an empty run. -/
theorem means_apply (a0 : FVec Ideal S4096x4096x1 .f32) (a1 : IVec S4096x4096x1 32)
    (hsame : ∀ (t : Fin 4095) (r : Fin 4096),
      RefTerm.same a1 (ix2 t r) = if bcol a1 r.val t.val = true then 1#1 else 0#1)
    (hsq : ∀ (t : Fin 4095) (r : Fin 4096), RefTerm.sq (F := Ideal) a0 (ix2 t r)
      = (P a0 (t.val+1) r.val - P a0 t.val r.val) * (P a0 (t.val+1) r.val - P a0 t.val r.val))
    (hseg : ∀ (t : Fin 4095) (r : Fin 4096), RefTerm.segId a1 (ix1 (⟨t.val * 4096 + r.val, by omega⟩ : Fin 16773120))
      = BitVec.ofNat 32 (seg (bcol a1 r.val) t.val + 4096 * r.val))
    (i : S16777216.Idx) :
    RefTerm.means (F := Ideal) a0 a1 i
      = segMean (bcol a1 ((i 0).val / 4096)) (qcol a0 a1 ((i 0).val / 4096)) 4095 ((i 0).val % 4096) := by
  unfold RefTerm.means
  rw [whereV_apply, hostDivf_apply, whereV_apply, valid_apply a1 hsame hseg, RefScatter.sums_apply a0 a1 hsame hsq hseg,
    RefScatter.cnts_apply a1 hsame hseg, constant_apply, constant_apply, Ideal.ofBits_zero_f32]
  unfold segMean
  have h01 : ¬ (0#1 : BitVec 1) = 1#1 := by decide
  by_cases h : 0 < segCnt (bcol a1 ((i 0).val / 4096)) 4095 ((i 0).val % 4096)
  · simp only [h, if_true]
  · simp only [h, if_false, h01]

/-! ## The two results -/

/-- The reference's sum of the means is the sum of all run means, over the columns. -/
theorem total_eq (a0 : FVec Ideal S4096x4096x1 .f32) (a1 : IVec S4096x4096x1 32)
    (hsame : ∀ (t : Fin 4095) (r : Fin 4096),
      RefTerm.same a1 (ix2 t r) = if bcol a1 r.val t.val = true then 1#1 else 0#1)
    (hsq : ∀ (t : Fin 4095) (r : Fin 4096), RefTerm.sq (F := Ideal) a0 (ix2 t r)
      = (P a0 (t.val+1) r.val - P a0 t.val r.val) * (P a0 (t.val+1) r.val - P a0 t.val r.val))
    (hseg : ∀ (t : Fin 4095) (r : Fin 4096), RefTerm.segId a1 (ix1 (⟨t.val * 4096 + r.val, by omega⟩ : Fin 16773120))
      = BitVec.ofNat 32 (seg (bcol a1 r.val) t.val + 4096 * r.val)) :
    RefTerm.total (F := Ideal) a0 a1 = fun _ => totalSum a0 a1 := by
  funext j
  unfold RefTerm.total
  rw [hostReduceAdd_apply, Ideal.hostReduceAdd_total _ (fun b => b.elim0), constant_apply, Ideal.ofBits_zero_f32, zero_add]
  rw [Finset.sum_congr rfl fun i _ => means_apply a0 a1 hsame hsq hseg i]
  exact sum_slots (fun r k => segMean (bcol a1 r) (qcol a0 a1 r) 4095 k)

/-- The reference's count of valid slots is the number of non-empty runs, over the columns. -/
theorem nValid_eq (a1 : IVec S4096x4096x1 32)
    (hsame : ∀ (t : Fin 4095) (r : Fin 4096),
      RefTerm.same a1 (ix2 t r) = if bcol a1 r.val t.val = true then 1#1 else 0#1)
    (hseg : ∀ (t : Fin 4095) (r : Fin 4096), RefTerm.segId a1 (ix1 (⟨t.val * 4096 + r.val, by omega⟩ : Fin 16773120))
      = BitVec.ofNat 32 (seg (bcol a1 r.val) t.val + 4096 * r.val)) :
    RefTerm.nValid (F := Ideal) a1 = fun _ => (((totalCnt a1 : ℕ)) : EReal) := by
  funext j
  unfold RefTerm.nValid
  rw [sitofp_apply, sitofp_ideal, Host.reduce_eq_fold,
    Finset.filter_true_of_mem fun i _ => funext fun b => b.elim0]
  have hx : ∀ i : S16777216.Idx, extui 32 (RefTerm.valid (F := Ideal) a1) natLt_1_32 i
      = if 0 < segCnt (bcol a1 ((i 0).val / 4096)) 4095 ((i 0).val % 4096) then 1#32 else 0#32 := by
    intro i
    rw [extui_apply, valid_apply a1 hsame hseg]
    split_ifs <;> rfl
  have hc : (Finset.univ.filter fun i : S16777216.Idx =>
      0 < segCnt (bcol a1 ((i 0).val / 4096)) 4095 ((i 0).val % 4096)).card = totalCnt a1 := by
    rw [Finset.card_filter, totalCnt_eq]
    exact sum_slots (fun r k => if 0 < segCnt (bcol a1 r) 4095 k then 1 else 0)
  have h0 : constantI S_ 32 0#32 (Shape.Idx.first h_S_) = 0#32 := rfl
  rw [h0, fold_count _ _ _ hx, hc, RefScatter.toInt_ofNat_small _ (by have := totalCnt_le a1; omega),
    Int.cast_natCast, EReal.coe_natCast]

end Cert.ReferenceIdeal.RefValue

end
-- ==== Proof.lean ====
/-
  The certificate's claim: the kernel program (a Pallas kernel running a twelve-step doubling scan down each column,
  followed by two small host sums and a guarded quotient) and its idealization run, terminate and keep their arguments;
  the idealization rewrote nothing; and at the ideal instance (floats as extended reals, operations exact) the idealized
  kernel program and the idealized reference end with the same result.

  The mathematics.  Column `r` of a [4096, 4096] array of predictions and of signs gives 4095 pairs of consecutive rows;
  a pair is kept when its rows carry the same sign; a run is a maximal stretch of kept pairs; a run's mean is the mean
  of its pairs' squared increments; the result is the mean of all run means (zero when there is no run).  The reference
  numbers the runs of a column by a cumulative sum of the boundary flags and adds each pair's squared increment and
  weight into its run's slot; the kernel carries, per row, the sum and count of the run ending there (a segmented scan
  by doubling offsets) and adds up the running mean at each pair that ends a run.  Both are the same finite sum of
  extended reals regrouped: only commutativity and associativity of addition are used, so no finiteness of the inputs
  is needed, and the precondition is never opened.
-/
import proofs.«140218_j35270271434984_2_alg».proof.Defs
import proofs.«140218_j35270271434984_2_alg».proof.Proof.Gen.Kernel
import proofs.«140218_j35270271434984_2_alg».proof.Proof.Gen.Kernel.Frame
import proofs.«140218_j35270271434984_2_alg».proof.Proof.Gen.KernelIdeal
import proofs.«140218_j35270271434984_2_alg».proof.Proof.Gen.KernelIdeal.Frame
import proofs.«140218_j35270271434984_2_alg».proof.Proof.Gen.ReferenceIdeal
import proofs.«140218_j35270271434984_2_alg».proof.Proof.Gen.Pre_finite_inputs
import proofs.«140218_j35270271434984_2_alg».proof.Proof.Assemble
import proofs.«140218_j35270271434984_2_alg».proof.Proof.KernelCol
import proofs.«140218_j35270271434984_2_alg».proof.Proof.RefSeg
import proofs.«140218_j35270271434984_2_alg».proof.Proof.RefValue
import Idealize.ShloMosaic.Adequacy
import Idealize.ShloMosaic.Init

noncomputable section

namespace Cert.Proof

open Idealize.ShloMosaic Idealize.SL.Sem

/-- The reference's sum of run means is the specification's total. -/
theorem ref_total (a0 : Cert.ReferenceIdeal.S4096x4096x1.Idx → EReal) (a1 : Cert.ReferenceIdeal.S4096x4096x1.Idx → BitVec 32) :
    Cert.ReferenceIdeal.RefTerm.total (F := Ideal) a0 a1 = fun _ => Cert.RunSpec.totalSum a0 a1 :=
  Cert.ReferenceIdeal.RefValue.total_eq a0 a1 (Cert.ReferenceIdeal.RefSeg.same_apply a1)
    (Cert.ReferenceIdeal.RefSeg.sq_apply a0) (Cert.ReferenceIdeal.RefSeg.segId_apply a1)

/-- The reference's number of non-empty runs is the specification's. -/
theorem ref_count (a1 : Cert.ReferenceIdeal.S4096x4096x1.Idx → BitVec 32) :
    Cert.ReferenceIdeal.RefTerm.nValid (F := Ideal) a1 = fun _ => (((Cert.RunSpec.totalCnt a1 : ℕ)) : EReal) :=
  Cert.ReferenceIdeal.RefValue.nValid_eq a1 (Cert.ReferenceIdeal.RefSeg.same_apply a1)
    (Cert.ReferenceIdeal.RefSeg.segId_apply a1)

theorem claim : Cert.Claim :=
  ⟨Cert.Kernel.Gen.facts, Cert.KernelIdeal.Gen.facts, Cert.ReferenceIdeal.Gen.facts, Cert.Pre_finite_inputs.Gen.facts,
    Assemble.frame_k, Assemble.frame_ki, Assemble.frame_ri, Assemble.preserves,
    Assemble.algebraic_of Cert.KernelIdeal.KernelCol.out_sum Cert.KernelIdeal.KernelCol.out_cnt ref_total ref_count⟩

end Cert.Proof

end
